-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3000000 : Shape := ⟨1, ![3000000]⟩
abbrev S1000000 : Shape := ⟨1, ![1000000]⟩
abbrev S50000x1024 : Shape := ⟨2, ![50000, 1024]⟩
abbrev S100000x64 : Shape := ⟨2, ![100000, 64]⟩
abbrev S50000x64 : Shape := ⟨2, ![50000, 64]⟩
abbrev S1024x64 : Shape := ⟨2, ![1024, 64]⟩
abbrev S64 : Shape := ⟨1, ![64]⟩
abbrev S_ : Shape := ⟨0, ![]⟩

class Facts : Prop where
  bcast_S_S3000000 : S_.BroadcastsInDim S3000000 (![] : Fin 0 → Fin S3000000.rank)
  reducesTo_S3000000_S_d0 : S3000000.ReducesTo [0] S_
  h_S_ : 0 < S_.numel
  bcast_S_S1000000 : S_.BroadcastsInDim S1000000 (![] : Fin 0 → Fin S1000000.rank)
  reducesTo_S1000000_S_d0 : S1000000.ReducesTo [0] S_
  bcast_S_S50000x1024 : S_.BroadcastsInDim S50000x1024 (![] : Fin 0 → Fin S50000x1024.rank)
  reducesTo_S50000x1024_S_d0_1 : S50000x1024.ReducesTo [0, 1] S_
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S50000x64 .f32) (main_arg9 : FVec F S1024x64 .f32) (main_arg10 : FVec F S64 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S50000x64 .f32 := Host.absf main_arg8
  let main_cst_6 : FVec F S_ .f32 := constant S_ .f32 0x7F800000#32
  let main_v20 : FVec F S50000x64 .f32 := broadcastInDim S50000x64 ![] bcast_S_S50000x64 main_cst_6
  let main_v21 : IVec S50000x64 1 := cmpf .olt main_v19 main_v20
  let main_c_7 : IVec S_ 1 := constantI S_ 1 1#1
  let main_v22 : IVec S_ 1 := (fun x v => Host.reduce IntOp.andi x v reducesTo_S50000x64_S_d0_1 h_S_) main_v21 main_c_7
  let main_v23 : IVec S_ 1 := andi main_v18 main_v22
  let main_v24 : FVec F S1024x64 .f32 := Host.absf main_arg9
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : IVec S3000000 32) (main_arg1 : IVec S3000000 32) (main_arg2 : FVec F S3000000 .f32) (main_arg3 : IVec S1000000 32) (main_arg4 : IVec S1000000 32) (main_arg5 : FVec F S1000000 .f32) (main_arg6 : FVec F S50000x1024 .f32) (main_arg7 : FVec F S100000x64 .f32) (main_arg8 : FVec F S50000x64 .f32) (main_arg9 : FVec F S1024x64 .f32) (main_arg10 : FVec F S64 .f32) : IVec S_ 1 :=
  let main_v0 : FVec F S3000000 .f32 := Host.absf main_arg2
  let main_cst : FVec F S_ .f32 := constant S_ .f32 0x7F800000#32
  let main_v1 : FVec F S3000000 .f32 := broadcastInDim S3000000 ![] bcast_S_S3000000 main_cst
  let main_v2 : IVec S3000000 1 := cmpf .olt main_v0 main_v1
  let main_c : IVec S_ 1 := constantI S_ 1 1#1
  let main_v3 : IVec S_ 1 := (fun x v => Host.reduce IntOp.andi x v reducesTo_S3000000_S_d0 h_S_) main_v2 main_c
  let main_v4 : FVec F S1000000 .f32 := Host.absf main_arg5
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S50000x1024 .f32 := Host.absf main_arg6
  let main_cst_2 : FVec F S_ .f32 := constant S_ .f32 0x7F800000#32
  let main_v10 : FVec F S50000x1024 .f32 := broadcastInDim S50000x1024 ![] bcast_S_S50000x1024 main_cst_2
  let main_v11 : IVec S50000x1024 1 := cmpf .olt main_v9 main_v10
  let main_c_3 : IVec S_ 1 := constantI S_ 1 1#1
  let main_v12 : IVec S_ 1 := (fun x v => Host.reduce IntOp.andi x v reducesTo_S50000x1024_S_d0_1 h_S_) main_v11 main_c_3
  let main_v13 : IVec S_ 1 := andi main_v8 main_v12
  let main_v14 : FVec F S100000x64 .f32 := Host.absf main_arg7
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg8 main_arg9 main_arg10 main_v13 main_v16
-- ==== Kernel.lean ====
abbrev S3000000 : Shape := ⟨1, ![3000000]⟩
abbrev S1000000 : Shape := ⟨1, ![1000000]⟩
abbrev S50000x1024 : Shape := ⟨2, ![50000, 1024]⟩
abbrev S100000x64 : Shape := ⟨2, ![100000, 64]⟩
abbrev S50000x64 : Shape := ⟨2, ![50000, 64]⟩
abbrev S1024x64 : Shape := ⟨2, ![1024, 64]⟩
abbrev S64 : Shape := ⟨1, ![64]⟩
abbrev S1x64 : Shape := ⟨2, ![1, 64]⟩
abbrev S1000x1024 : Shape := ⟨2, ![1000, 1024]⟩
abbrev S1000x64 : Shape := ⟨2, ![1000, 64]⟩
abbrev S1000 : Shape := ⟨1, ![1000]⟩
abbrev S1000x1 : Shape := ⟨2, ![1000, 1]⟩
abbrev S150000x64 : Shape := ⟨2, ![150000, 64]⟩
abbrev S1000000x1 : Shape := ⟨2, ![1000000, 1]⟩
abbrev S_ : Shape := ⟨0, ![]⟩
abbrev S1000000x64 : Shape := ⟨2, ![1000000, 64]⟩
abbrev S3000000x1 : Shape := ⟨2, ![3000000, 1]⟩
abbrev S3000000x64 : Shape := ⟨2, ![3000000, 64]⟩
abbrev S5000x64 : Shape := ⟨2, ![5000, 64]⟩

abbrev nBuf : Space → Nat
  | .hbm => 102
  | .vmem => 26
  | .smem => 0
  | _ => 0

abbrev bufTy : (tb : Table) → Fin (tcTables nBuf tb) → BufTy
  | .hbm, ⟨0, _⟩ => ⟨S3000000, .i32⟩
  | .hbm, ⟨1, _⟩ => ⟨S3000000, .i32⟩
  | .hbm, ⟨2, _⟩ => ⟨S3000000, .f32⟩
  | .hbm, ⟨3, _⟩ => ⟨S1000000, .i32⟩
  | .hbm, ⟨4, _⟩ => ⟨S1000000, .i32⟩
  | .hbm, ⟨5, _⟩ => ⟨S1000000, .f32⟩
  | .hbm, ⟨6, _⟩ => ⟨S50000x1024, .f32⟩
  | .hbm, ⟨7, _⟩ => ⟨S100000x64, .f32⟩
  | .hbm, ⟨8, _⟩ => ⟨S50000x64, .f32⟩
  | .hbm, ⟨9, _⟩ => ⟨S1024x64, .f32⟩
  | .hbm, ⟨10, _⟩ => ⟨S64, .f32⟩
  | .hbm, ⟨11, _⟩ => ⟨S1x64, .f32⟩
  | .hbm, ⟨12, _⟩ => ⟨S50000x64, .f32⟩
  | .hbm, ⟨13, _⟩ => ⟨S150000x64, .f32⟩
  | .hbm, ⟨14, _⟩ => ⟨S1000000x1, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S1000000x64, .f32⟩
  | .hbm, ⟨25, _⟩ => ⟨S1000000x64, .f32⟩
  | .hbm, ⟨26, _⟩ => ⟨S_, .f32⟩
  | .hbm, ⟨27, _⟩ => ⟨S150000x64, .f32⟩
  | .hbm, ⟨28, _⟩ => ⟨S1000000x1, .i32⟩
  | .hbm, ⟨29, _⟩ => ⟨S150000x64, .f32⟩
  | .hbm, ⟨30, _⟩ => ⟨S150000x64, .f32⟩
  | .hbm, ⟨31, _⟩ => ⟨S3000000x1, .f32⟩
  | .hbm, ⟨32, _⟩ => ⟨S_, .i32⟩
  | .hbm, ⟨33, _⟩ => ⟨S3000000, .i32⟩
  | .hbm, ⟨34, _⟩ => ⟨S3000000, .i1⟩
  | .hbm, ⟨35, _⟩ => ⟨S_, .i32⟩
  | .hbm, ⟨36, _⟩ => ⟨S3000000, .i32⟩
  | .hbm, ⟨37, _⟩ => ⟨S3000000, .i32⟩
  | .hbm, ⟨38, _⟩ => ⟨S3000000, .i32⟩
  | .hbm, ⟨39, _⟩ => ⟨S3000000x1, .i32⟩
  | .hbm, ⟨40, _⟩ => ⟨S3000000x64, .f32⟩
  | .hbm, ⟨41, _⟩ => ⟨S3000000x64, .f32⟩
  | .hbm, ⟨42, _⟩ => ⟨S3000000x64, .f32⟩
  | .hbm, ⟨43, _⟩ => ⟨S_, .f32⟩
  | .hbm, ⟨44, _⟩ => ⟨S150000x64, .f32⟩
  | .hbm, ⟨45, _⟩ => ⟨S3000000x1, .i32⟩
  | .hbm, ⟨46, _⟩ => ⟨S150000x64, .f32⟩
  | .hbm, ⟨47, _⟩ => ⟨S100000x64, .f32⟩
  | .hbm, ⟨48, _⟩ => ⟨S150000x64, .f32⟩
  | .hbm, ⟨49, _⟩ => ⟨S3000000x1, .f32⟩
  | .hbm, ⟨50, _⟩ => ⟨S_, .i32⟩
  | .hbm, ⟨51, _⟩ => ⟨S3000000, .i32⟩
  | .hbm, ⟨52, _⟩ => ⟨S3000000, .i1⟩
  | .hbm, ⟨53, _⟩ => ⟨S_, .i32⟩
  | .hbm, ⟨54, _⟩ => ⟨S3000000, .i32⟩
  | .hbm, ⟨55, _⟩ => ⟨S3000000, .i32⟩
  | .hbm, ⟨56, _⟩ => ⟨S3000000, .i32⟩
  | .hbm, ⟨57, _⟩ => ⟨S3000000x1, .i32⟩
  | .hbm, ⟨58, _⟩ => ⟨S3000000x64, .f32⟩
  | .hbm, ⟨59, _⟩ => ⟨S3000000x64, .f32⟩
  | .hbm, ⟨60, _⟩ => ⟨S3000000x64, .f32⟩
  | .hbm, ⟨61, _⟩ => ⟨S_, .f32⟩
  | .hbm, ⟨62, _⟩ => ⟨S150000x64, .f32⟩
  | .hbm, ⟨63, _⟩ => ⟨S3000000x1, .i32⟩
  | .hbm, ⟨64, _⟩ => ⟨S150000x64, .f32⟩
  | .hbm, ⟨65, _⟩ => ⟨S150000x64, .f32⟩
  | .hbm, ⟨66, _⟩ => ⟨S3000000x1, .f32⟩
  | .hbm, ⟨67, _⟩ => ⟨S_, .i32⟩
  | .hbm, ⟨68, _⟩ => ⟨S3000000, .i32⟩
  | .hbm, ⟨69, _⟩ => ⟨S3000000, .i1⟩
  | .hbm, ⟨70, _⟩ => ⟨S_, .i32⟩
  | .hbm, ⟨71, _⟩ => ⟨S3000000, .i32⟩
  | .hbm, ⟨72, _⟩ => ⟨S3000000, .i32⟩
  | .hbm, ⟨73, _⟩ => ⟨S3000000, .i32⟩
  | .hbm, ⟨74, _⟩ => ⟨S3000000x1, .i32⟩
  | .hbm, ⟨75, _⟩ => ⟨S3000000x64, .f32⟩
  | .hbm, ⟨76, _⟩ => ⟨S3000000x64, .f32⟩
  | .hbm, ⟨77, _⟩ => ⟨S3000000x64, .f32⟩
  | .hbm, ⟨78, _⟩ => ⟨S_, .f32⟩
  | .hbm, ⟨79, _⟩ => ⟨S150000x64, .f32⟩
  | .hbm, ⟨80, _⟩ => ⟨S3000000x1, .i32⟩
  | .hbm, ⟨81, _⟩ => ⟨S150000x64, .f32⟩
  | .hbm, ⟨82, _⟩ => ⟨S150000x64, .f32⟩
  | .hbm, ⟨83, _⟩ => ⟨S3000000x1, .f32⟩
  | .hbm, ⟨84, _⟩ => ⟨S_, .i32⟩
  | .hbm, ⟨85, _⟩ => ⟨S3000000, .i32⟩
  | .hbm, ⟨86, _⟩ => ⟨S3000000, .i1⟩
  | .hbm, ⟨87, _⟩ => ⟨S_, .i32⟩
  | .hbm, ⟨88, _⟩ => ⟨S3000000, .i32⟩
  | .hbm, ⟨89, _⟩ => ⟨S3000000, .i32⟩
  | .hbm, ⟨90, _⟩ => ⟨S3000000, .i32⟩
  | .hbm, ⟨91, _⟩ => ⟨S3000000x1, .i32⟩
  | .hbm, ⟨92, _⟩ => ⟨S3000000x64, .f32⟩
  | .hbm, ⟨93, _⟩ => ⟨S3000000x64, .f32⟩
  | .hbm, ⟨94, _⟩ => ⟨S3000000x64, .f32⟩
  | .hbm, ⟨95, _⟩ => ⟨S_, .f32⟩
  | .hbm, ⟨96, _⟩ => ⟨S150000x64, .f32⟩
  | .hbm, ⟨97, _⟩ => ⟨S3000000x1, .i32⟩
  | .hbm, ⟨98, _⟩ => ⟨S150000x64, .f32⟩
  | .hbm, ⟨99, _⟩ => ⟨S150000x64, .f32⟩
  | .hbm, ⟨100, _⟩ => ⟨S100000x64, .f32⟩
  | .hbm, ⟨101, _⟩ => ⟨S50000x64, .f32⟩
  | .local _ .vmem, ⟨0, _⟩ => ⟨S1000x1024, .f32⟩
  | .local _ .vmem, ⟨1, _⟩ => ⟨S1000x1024, .f32⟩
  | .local _ .vmem, ⟨2, _⟩ => ⟨S1024x64, .f32⟩
  | .local _ .vmem, ⟨3, _⟩ => ⟨S1x64, .f32⟩
  | .local _ .vmem, ⟨4, _⟩ => ⟨S1000x64, .f32⟩
  | .local _ .vmem, ⟨5, _⟩ => ⟨S1000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | _, _ => ⟨S3000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S64_S1x64 : S64.ShapeCasts S1x64
  inb_S1000x1024_S1000x1024_0_0 : ∀ a, (![0, 0] : Fin 2 → Nat) a + S1000x1024.size a ≤ S1000x1024.size a
  h_S1000x1024 : 0 < S1000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  reduces_S1000x64_S1000 : S1000x64.Reduces [1] S1000
  shapeCasts_S1000_S1000x1 : S1000.ShapeCasts S1000x1
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  slices_S150000x64_S100000x64_0_0 : S150000x64.Slices ![0, 0] S100000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S150000x64_S50000x64_100000_0 : S150000x64.Slices ![100000, 0] S50000x64
  dot_S1000x1024_S1024x64_S1000x64_1_0_0_1_n_n_wf : DotDims.WF S1000x1024 S1024x64 S1000x64 [1] [0] [0] [1] [] []
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .f32 = 32 ∨ (Rect.block (s := S50000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S150000x64.size a
  hwx1_1 : ∀ i : grid1.Coords, EltTy.bits .f32 = 32 ∨ (Rect.block (s := S150000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S150000x64.size a
  hwx1_2 : ∀ i : grid1.Coords, EltTy.bits .f32 = 32 ∨ (Rect.block (s := S150000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S150000x64.size a
  hwx1_3 : ∀ i : grid1.Coords, EltTy.bits .f32 = 32 ∨ (Rect.block (s := S150000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S150000x64.size a
  hwx2_0 : ∀ i : grid2.Coords, EltTy.bits .f32 = 32 ∨ (Rect.block (s := S150000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S150000x64.size a
  hwx2_1 : ∀ i : grid2.Coords, EltTy.bits .f32 = 32 ∨ (Rect.block (s := S150000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S150000x64.size a
  hwx2_2 : ∀ i : grid2.Coords, EltTy.bits .f32 = 32 ∨ (Rect.block (s := S150000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S150000x64.size a
  hwx3_2 : ∀ i : grid3.Coords, EltTy.bits .f32 = 32 ∨ (Rect.block (s := S150000x64) S5000x64.size (cc3_transform_2 i) (hinb3_2 i)).WholeWords (EltTy.packing .f32)

variable [Facts₀]

def dot_S1000x1024_S1024x64_S1000x64_1_0_0_1_n_n : DotDims S1000x1024 S1024x64 S1000x64 where
  lhsContracting := [1]
  rhsContracting := [0]
  lhsNonContracting := [0]
  rhsNonContracting := [1]
  lhsBatch := []
  rhsBatch := []
  wf := dot_S1000x1024_S1024x64_S1000x64_1_0_0_1_n_n_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

abbrev win0_0 : Pipeline.Window sig grid0 :=
  Pipeline.Window.ofSpec (Memref.whole main_arg6) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S3000000 : Shape := ⟨1, ![3000000]⟩
abbrev S1000000 : Shape := ⟨1, ![1000000]⟩
abbrev S50000x1024 : Shape := ⟨2, ![50000, 1024]⟩
abbrev S100000x64 : Shape := ⟨2, ![100000, 64]⟩
abbrev S50000x64 : Shape := ⟨2, ![50000, 64]⟩
abbrev S1024x64 : Shape := ⟨2, ![1024, 64]⟩
abbrev S64 : Shape := ⟨1, ![64]⟩
abbrev S1x64 : Shape := ⟨2, ![1, 64]⟩
abbrev S150000x64 : Shape := ⟨2, ![150000, 64]⟩
abbrev S1000000x1 : Shape := ⟨2, ![1000000, 1]⟩
abbrev S_ : Shape := ⟨0, ![]⟩
abbrev S1000000x64 : Shape := ⟨2, ![1000000, 64]⟩
abbrev S50000 : Shape := ⟨1, ![50000]⟩
abbrev S50000x1 : Shape := ⟨2, ![50000, 1]⟩
abbrev S3000000x1 : Shape := ⟨2, ![3000000, 1]⟩
abbrev S3000000x64 : Shape := ⟨2, ![3000000, 64]⟩

abbrev nBuf : Space → Nat
  | .hbm => 118
  | .vmem => 0
  | .smem => 0
  | _ => 0

abbrev bufTy : (tb : Table) → Fin (tcTables nBuf tb) → BufTy
  | .hbm, ⟨0, _⟩ => ⟨S3000000, .i32⟩
  | .hbm, ⟨1, _⟩ => ⟨S3000000, .i32⟩
  | .hbm, ⟨2, _⟩ => ⟨S3000000, .f32⟩
  | .hbm, ⟨3, _⟩ => ⟨S1000000, .i32⟩
  | .hbm, ⟨4, _⟩ => ⟨S1000000, .i32⟩
  | .hbm, ⟨5, _⟩ => ⟨S1000000, .f32⟩
  | .hbm, ⟨6, _⟩ => ⟨S50000x1024, .f32⟩
  | .hbm, ⟨7, _⟩ => ⟨S100000x64, .f32⟩
  | .hbm, ⟨8, _⟩ => ⟨S50000x64, .f32⟩
  | .hbm, ⟨9, _⟩ => ⟨S1024x64, .f32⟩
  | .hbm, ⟨10, _⟩ => ⟨S64, .f32⟩
  | .hbm, ⟨11, _⟩ => ⟨S50000x64, .f32⟩
  | .hbm, ⟨12, _⟩ => ⟨S1x64, .f32⟩
  | .hbm, ⟨13, _⟩ => ⟨S50000x64, .f32⟩
  | .hbm, ⟨14, _⟩ => ⟨S50000x64, .f32⟩
  | .hbm, ⟨15, _⟩ => ⟨S150000x64, .f32⟩
  | .hbm, ⟨16, _⟩ => ⟨S1000000x1, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x64, .f32⟩
  | .hbm, ⟨27, _⟩ => ⟨S1000000x64, .f32⟩
  | .hbm, ⟨28, _⟩ => ⟨S_, .f32⟩
  | .hbm, ⟨29, _⟩ => ⟨S150000x64, .f32⟩
  | .hbm, ⟨30, _⟩ => ⟨S1000000x1, .i32⟩
  | .hbm, ⟨31, _⟩ => ⟨S150000x64, .f32⟩
  | .hbm, ⟨32, _⟩ => ⟨S50000x64, .f32⟩
  | .hbm, ⟨33, _⟩ => ⟨S_, .f32⟩
  | .hbm, ⟨34, _⟩ => ⟨S50000, .f32⟩
  | .hbm, ⟨35, _⟩ => ⟨S50000x1, .f32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S150000x64, .f32⟩
  | .hbm, ⟨43, _⟩ => ⟨S3000000x1, .f32⟩
  | .hbm, ⟨44, _⟩ => ⟨S_, .i32⟩
  | .hbm, ⟨45, _⟩ => ⟨S3000000, .i32⟩
  | .hbm, ⟨46, _⟩ => ⟨S3000000, .i1⟩
  | .hbm, ⟨47, _⟩ => ⟨S_, .i32⟩
  | .hbm, ⟨48, _⟩ => ⟨S3000000, .i32⟩
  | .hbm, ⟨49, _⟩ => ⟨S3000000, .i32⟩
  | .hbm, ⟨50, _⟩ => ⟨S3000000, .i32⟩
  | .hbm, ⟨51, _⟩ => ⟨S3000000x1, .i32⟩
  | .hbm, ⟨52, _⟩ => ⟨S3000000x64, .f32⟩
  | .hbm, ⟨53, _⟩ => ⟨S3000000x64, .f32⟩
  | .hbm, ⟨54, _⟩ => ⟨S3000000x64, .f32⟩
  | .hbm, ⟨55, _⟩ => ⟨S_, .f32⟩
  | .hbm, ⟨56, _⟩ => ⟨S150000x64, .f32⟩
  | .hbm, ⟨57, _⟩ => ⟨S3000000x1, .i32⟩
  | .hbm, ⟨58, _⟩ => ⟨S150000x64, .f32⟩
  | .hbm, ⟨59, _⟩ => ⟨S100000x64, .f32⟩
  | .hbm, ⟨60, _⟩ => ⟨S150000x64, .f32⟩
  | .hbm, ⟨61, _⟩ => ⟨S3000000x1, .f32⟩
  | .hbm, ⟨62, _⟩ => ⟨S_, .i32⟩
  | .hbm, ⟨63, _⟩ => ⟨S3000000, .i32⟩
  | .hbm, ⟨64, _⟩ => ⟨S3000000, .i1⟩
  | .hbm, ⟨65, _⟩ => ⟨S_, .i32⟩
  | .hbm, ⟨66, _⟩ => ⟨S3000000, .i32⟩
  | .hbm, ⟨67, _⟩ => ⟨S3000000, .i32⟩
  | .hbm, ⟨68, _⟩ => ⟨S3000000, .i32⟩
  | .hbm, ⟨69, _⟩ => ⟨S3000000x1, .i32⟩
  | .hbm, ⟨70, _⟩ => ⟨S3000000x64, .f32⟩
  | .hbm, ⟨71, _⟩ => ⟨S3000000x64, .f32⟩
  | .hbm, ⟨72, _⟩ => ⟨S3000000x64, .f32⟩
  | .hbm, ⟨73, _⟩ => ⟨S_, .f32⟩
  | .hbm, ⟨74, _⟩ => ⟨S150000x64, .f32⟩
  | .hbm, ⟨75, _⟩ => ⟨S3000000x1, .i32⟩
  | .hbm, ⟨76, _⟩ => ⟨S150000x64, .f32⟩
  | .hbm, ⟨77, _⟩ => ⟨S150000x64, .f32⟩
  | .hbm, ⟨78, _⟩ => ⟨S_, .f32⟩
  | .hbm, ⟨79, _⟩ => ⟨S150000x64, .f32⟩
  | .hbm, ⟨80, _⟩ => ⟨S150000x64, .f32⟩
  | .hbm, ⟨81, _⟩ => ⟨S150000x64, .f32⟩
  | .hbm, ⟨82, _⟩ => ⟨S3000000x1, .f32⟩
  | .hbm, ⟨83, _⟩ => ⟨S_, .i32⟩
  | .hbm, ⟨84, _⟩ => ⟨S3000000, .i32⟩
  | .hbm, ⟨85, _⟩ => ⟨S3000000, .i1⟩
  | .hbm, ⟨86, _⟩ => ⟨S_, .i32⟩
  | .hbm, ⟨87, _⟩ => ⟨S3000000, .i32⟩
  | .hbm, ⟨88, _⟩ => ⟨S3000000, .i32⟩
  | .hbm, ⟨89, _⟩ => ⟨S3000000, .i32⟩
  | .hbm, ⟨90, _⟩ => ⟨S3000000x1, .i32⟩
  | .hbm, ⟨91, _⟩ => ⟨S3000000x64, .f32⟩
  | .hbm, ⟨92, _⟩ => ⟨S3000000x64, .f32⟩
  | .hbm, ⟨93, _⟩ => ⟨S3000000x64, .f32⟩
  | .hbm, ⟨94, _⟩ => ⟨S_, .f32⟩
  | .hbm, ⟨95, _⟩ => ⟨S150000x64, .f32⟩
  | .hbm, ⟨96, _⟩ => ⟨S3000000x1, .i32⟩
  | .hbm, ⟨97, _⟩ => ⟨S150000x64, .f32⟩
  | .hbm, ⟨98, _⟩ => ⟨S150000x64, .f32⟩
  | .hbm, ⟨99, _⟩ => ⟨S3000000x1, .f32⟩
  | .hbm, ⟨100, _⟩ => ⟨S_, .i32⟩
  | .hbm, ⟨101, _⟩ => ⟨S3000000, .i32⟩
  | .hbm, ⟨102, _⟩ => ⟨S3000000, .i1⟩
  | .hbm, ⟨103, _⟩ => ⟨S_, .i32⟩
  | .hbm, ⟨104, _⟩ => ⟨S3000000, .i32⟩
  | .hbm, ⟨105, _⟩ => ⟨S3000000, .i32⟩
  | .hbm, ⟨106, _⟩ => ⟨S3000000, .i32⟩
  | .hbm, ⟨107, _⟩ => ⟨S3000000x1, .i32⟩
  | .hbm, ⟨108, _⟩ => ⟨S3000000x64, .f32⟩
  | .hbm, ⟨109, _⟩ => ⟨S3000000x64, .f32⟩
  | .hbm, ⟨110, _⟩ => ⟨S3000000x64, .f32⟩
  | .hbm, ⟨111, _⟩ => ⟨S_, .f32⟩
  | .hbm, ⟨112, _⟩ => ⟨S150000x64, .f32⟩
  | .hbm, ⟨113, _⟩ => ⟨S3000000x1, .i32⟩
  | .hbm, ⟨114, _⟩ => ⟨S150000x64, .f32⟩
  | .hbm, ⟨115, _⟩ => ⟨S150000x64, .f32⟩
  | .hbm, ⟨116, _⟩ => ⟨S100000x64, .f32⟩
  | .hbm, ⟨117, _⟩ => ⟨S50000x64, .f32⟩
  | _, _ => ⟨S3000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_12 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  slices_S150000x64_S100000x64_0_0 : S150000x64.Slices ![0, 0] S100000x64
  slices_S150000x64_S50000x64_100000_0 : S150000x64.Slices ![100000, 0] S50000x64
  dot_S50000x1024_S1024x64_S50000x64_1_0_0_1_n_n_wf : DotDims.WF S50000x1024 S1024x64 S50000x64 [1] [0] [0] [1] [] []
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1

variable [Facts₀]

def dot_S50000x1024_S1024x64_S50000x64_1_0_0_1_n_n : DotDims S50000x1024 S1024x64 S50000x64 where
  lhsContracting := [1]
  rhsContracting := [0]
  lhsNonContracting := [0]
  rhsNonContracting := [1]
  lhsBatch := []
  rhsBatch := []
  wf := dot_S50000x1024_S1024x64_S50000x64_1_0_0_1_n_n_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

class Facts : Prop extends Facts₀ where

variable [Facts]
-- ==== Proof.HostPipe.lean ====
/-
  The host side of the kernel's @main, as whole-array functions at any float instance.

  One sparse product  A · x  with A given by E edges (row, column, weight) is, as lowered:
  wrap negative column numbers by 150000, gather the rows x[col], scale row e by weight e, and add row e
  into row row(e) of a zero [150000, 64] array. `spmmAdj` is that product for the 3,000,000-edge graph,
  `spmmImg` for the 1,000,000-edge one. `pipeline` is everything @main computes from the normalized
  image features P: three products to build the mixed embedding z = e1 + e2 + 1·eImg, then two more
  propagation steps added on, acc = z + A z + A (A z).
-/
import proofs.«118849_j28003186770673_1_alg».proof.KernelIdeal

noncomputable section

namespace Cert.KernelIdeal.Whole

open Cert.KernelIdeal.Facts₀ Cert.KernelIdeal.Facts
open Cert.KernelIdeal Idealize.ShloMosaic Idealize.ShloMosaic.TcCoe

variable {F : FTy → Type} [FloatOps F] [Cert.KernelIdeal.Facts]

/-- Two [·, 64] arrays stacked: 100000 rows on top of 50000. -/
def stack (a : (⟨S100000x64, .f32⟩ : BufTy).Contents (Elt F)) (b : (⟨S50000x64, .f32⟩ : BufTy).Contents (Elt F)) :
    (⟨S150000x64, .f32⟩ : BufTy).Contents (Elt F) :=
  concatenate S150000x64 0 [⟨S100000x64, a⟩, ⟨S50000x64, b⟩] concatenates_S100000x64_S50000x64_S150000x64_d0

/-- The first 100000 rows. -/
def top (x : (⟨S150000x64, .f32⟩ : BufTy).Contents (Elt F)) : (⟨S100000x64, .f32⟩ : BufTy).Contents (Elt F) :=
  extractStridedSlice S100000x64 ![0, 0] x slices_S150000x64_S100000x64_0_0

/-- The last 50000 rows. -/
def bottom (x : (⟨S150000x64, .f32⟩ : BufTy).Contents (Elt F)) : (⟨S50000x64, .f32⟩ : BufTy).Contents (Elt F) :=
  extractStridedSlice S50000x64 ![100000, 0] x slices_S150000x64_S50000x64_100000_0

/-- The sparse product over the 3,000,000-edge graph (rows a0, columns a1, weights a2). -/
def spmmAdj (a0 a1 : (⟨S3000000, .i32⟩ : BufTy).Contents (Elt F)) (a2 : (⟨S3000000, .f32⟩ : BufTy).Contents (Elt F))
    (x : (⟨S150000x64, .f32⟩ : BufTy).Contents (Elt F)) : (⟨S150000x64, .f32⟩ : BufTy).Contents (Elt F) :=
  Host.scatterAdd scatter_S150000x64_S3000000x1_S3000000x64_1_0_0_1
    (broadcastInDim S150000x64 ![] bcast_S_S150000x64 (constant S_ .f32 0x00000000#32))
    (broadcastInDim S3000000x1 ![0] bcast_S3000000_S3000000x1_0 a0)
    (mulf (broadcastInDim S3000000x64 ![0, 1] bcast_S3000000x1_S3000000x64_0_1 (broadcastInDim S3000000x1 ![0] bcast_S3000000_S3000000x1_0 a2))
      (Host.gather gather_S150000x64_S3000000x1_S3000000x64_1_0_n_n_0_1_164 x
        (broadcastInDim S3000000x1 ![0] bcast_S3000000_S3000000x1_0
          (select (cmpi .slt a1 (broadcastInDim S3000000 ![] bcast_S_S3000000 (constantI S_ 32 0#32)))
            (addi a1 (broadcastInDim S3000000 ![] bcast_S_S3000000 (constantI S_ 32 150000#32))) a1))))

/-- The sparse product over the 1,000,000-edge graph (rows a3, columns a4, weights a5). -/
def spmmImg (a3 a4 : (⟨S1000000, .i32⟩ : BufTy).Contents (Elt F)) (a5 : (⟨S1000000, .f32⟩ : BufTy).Contents (Elt F))
    (x : (⟨S150000x64, .f32⟩ : BufTy).Contents (Elt F)) : (⟨S150000x64, .f32⟩ : BufTy).Contents (Elt F) :=
  Host.scatterAdd scatter_S150000x64_S1000000x1_S1000000x64_1_0_0_1
    (broadcastInDim S150000x64 ![] bcast_S_S150000x64 (constant S_ .f32 0x00000000#32))
    (broadcastInDim S1000000x1 ![0] bcast_S1000000_S1000000x1_0 a3)
    (mulf (broadcastInDim S1000000x64 ![0, 1] bcast_S1000000x1_S1000000x64_0_1 (broadcastInDim S1000000x1 ![0] bcast_S1000000_S1000000x1_0 a5))
      (Host.gather gather_S150000x64_S1000000x1_S1000000x64_1_0_n_n_0_1_164 x
        (broadcastInDim S1000000x1 ![0] bcast_S1000000_S1000000x1_0
          (select (cmpi .slt a4 (broadcastInDim S1000000 ![] bcast_S_S1000000 (constantI S_ 32 0#32)))
            (addi a4 (broadcastInDim S1000000 ![] bcast_S_S1000000 (constantI S_ 32 150000#32))) a4))))

/-- The entrywise sum of two [150000, 64] arrays. -/
def sum2 (a b : (⟨S150000x64, .f32⟩ : BufTy).Contents (Elt F)) : (⟨S150000x64, .f32⟩ : BufTy).Contents (Elt F) := addf a b

/-- a + b + 1·c entrywise, the factor being the float literal 1.0 spread over the array. -/
def mix3 (a b c : (⟨S150000x64, .f32⟩ : BufTy).Contents (Elt F)) : (⟨S150000x64, .f32⟩ : BufTy).Contents (Elt F) :=
  addf (addf a b) (mulf (broadcastInDim S150000x64 ![] bcast_S_S150000x64 (constant S_ .f32 0x3F800000#32)) c)

/-- Everything @main computes after region 0, from region 0's output P and the argument arrays. -/
def pipeline (a0 a1 : (⟨S3000000, .i32⟩ : BufTy).Contents (Elt F)) (a2 : (⟨S3000000, .f32⟩ : BufTy).Contents (Elt F))
    (a3 a4 : (⟨S1000000, .i32⟩ : BufTy).Contents (Elt F)) (a5 : (⟨S1000000, .f32⟩ : BufTy).Contents (Elt F))
    (a7 : (⟨S100000x64, .f32⟩ : BufTy).Contents (Elt F)) (a8 : (⟨S50000x64, .f32⟩ : BufTy).Contents (Elt F))
    (P : (⟨S50000x64, .f32⟩ : BufTy).Contents (Elt F)) : (⟨S150000x64, .f32⟩ : BufTy).Contents (Elt F) :=
  sum2 (sum2 (mix3 (spmmAdj a0 a1 a2 (stack a7 P)) (spmmAdj a0 a1 a2 (stack (top (spmmAdj a0 a1 a2 (stack a7 P))) a8)) (spmmImg a3 a4 a5 (stack a7 a8)))
      (spmmAdj a0 a1 a2 (mix3 (spmmAdj a0 a1 a2 (stack a7 P)) (spmmAdj a0 a1 a2 (stack (top (spmmAdj a0 a1 a2 (stack a7 P))) a8)) (spmmImg a3 a4 a5 (stack a7 a8)))))
    (spmmAdj a0 a1 a2 (spmmAdj a0 a1 a2 (mix3 (spmmAdj a0 a1 a2 (stack a7 P)) (spmmAdj a0 a1 a2 (stack (top (spmmAdj a0 a1 a2 (stack a7 P))) a8)) (spmmImg a3 a4 a5 (stack a7 a8)))))

end Cert.KernelIdeal.Whole

end
-- ==== Proof.Region1.lean ====
/-
  Region 1 of the kernel: every grid point takes its 5000-row block of the three sparse products and writes back
  block(e1) + block(e2) + 1·block(eImg), the factor being the float literal 1.0. The 30 blocks tile the 150000 rows,
  so the array the region leaves is that combination of the three whole arrays, entry by entry.
-/
import proofs.«118849_j28003186770673_1_alg».proof.Proof.Gen.KernelIdeal.Frame
import proofs.«118849_j28003186770673_1_alg».proof.Proof.HostPipe
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin1 : (![0, 0] : Fin 2 → Nat) = fun _ => 0 := funext fun a => by fin_cases a <;> rfl

/-- The body's stored value: the sum of the first two loaded blocks plus the literal 1.0 times the third
    (the three shape casts are identities). -/
theorem body1_eq (x0 x1 x2 : Vec F S5000x64 .f32) :
    k1_pay1 x0 x1 x2 = addf (addf x0 x1) (mulf (broadcast S5000x64 (Scalar.ofBits .f32 0x3F800000#32)) x2) := by
  unfold k1_pay1
  simp only [shapeCast_self]

/-- The literal 1.0 spread over the whole array reads 1.0 at every entry. -/
theorem one_at (i : S150000x64.Idx) :
    broadcastInDim S150000x64 ![] bcast_S_S150000x64 (constant (F := F) S_ .f32 0x3F800000#32) i = FloatOps.ofBits .f32 0x3F800000#32 :=
  broadcastInDim_apply _ bcast_S_S150000x64 (constant (F := F) S_ .f32 0x3F800000#32) i (fun a => a.elim0) (fun a => a.elim0)

/-- All four windows of region 1 move together: block t is rows 5000 t … 5000 t + 4999, all 64 columns. -/
theorem maps1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = win1_3.index t (1 : Fin 2)
    ∧ win1_3.index t (0 : Fin 2) ≤ 29 ∧ win1_3.index t (1 : Fin 2) = 0 :=
  (by decide +kernel : ∀ t : Fin grid1.N, _)

/-- Every one of the 30 row blocks is some grid point's. -/
theorem onto1 : ∀ q : Fin 30, ∃ t : Fin cfg1.N, win1_3.index t = ![q.val, 0] :=
  (by decide +kernel : ∀ q : Fin 30, ∃ t : Fin grid1.N, win1_3.index t = ![q.val, 0])

/-- What grid point t writes back is block t of the combination of the three arrays the region read. -/
theorem flushed1_eq (c : Dev nD) (t : Fin cfg1.N) :
    (dat1 V c).flushed 3 t = ((cfg1.win 3).blk t).view.read (Elt F) (mix3 (V c main_v29) (V c main_v44) (V c main_v15)) := by
  show (cfg1.win 3).cut (grid1.coords t) ((dat1 V c).after 3 t) = _
  rw [after1_3]
  unfold out1_3
  rw [View.canon_unit_zero origin1]
  simp only [View.ld_unit_zero (S := S5000x64) origin1]
  rw [body1_eq]
  obtain ⟨e0, e1, e2, e3, e4, e5, e6, e7⟩ := maps1 t
  funext j
  show FloatOps.addf (FloatOps.addf (V c main_v29 (((cfg1.win 0).blk t).view.emb j)) (V c main_v44 (((cfg1.win 1).blk t).view.emb j)))
        (FloatOps.mulf (FloatOps.ofBits .f32 0x3F800000#32) (V c main_v15 (((cfg1.win 2).blk t).view.emb j)))
      = FloatOps.addf (FloatOps.addf (V c main_v29 (((cfg1.win 3).blk t).view.emb j)) (V c main_v44 (((cfg1.win 3).blk t).view.emb j)))
        (FloatOps.mulf (broadcastInDim S150000x64 ![] bcast_S_S150000x64 (constant (F := F) S_ .f32 0x3F800000#32) (((cfg1.win 3).blk t).view.emb j))
          (V c main_v15 (((cfg1.win 3).blk t).view.emb j)))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  have h2 : ((cfg1.win 2).blk t).view.emb j = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 64 + 1 * (j 1).val = win1_3.index t (1 : Fin 2) * 64 + 1 * (j 1).val; omega
  rw [h0, h1, h2, one_at]

/-- An index of the array lies in point t's block iff each coordinate is in the block's range on its axis. -/
theorem mem_block1 (t : Fin cfg1.N) (i : S150000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- The 30 blocks cover the array: row r lies in block r / 5000. -/
theorem cover1 (i : S150000x64.Idx) :
    ∃ t : Fin cfg1.N, (cfg1.win 3).flush t = true ∧ i ∈ ((cfg1.win 3).blk t).view.set := by
  have hi0 : (i 0).val < 150000 := (i 0).isLt
  have hi1 : (i 1).val < 64 := (i 1).isLt
  obtain ⟨t, ht⟩ := onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The array region 1 leaves: a + b + 1·c of the three arrays it read, whatever they held at its entry. -/
theorem whole1 (c : Dev nD) : (dat1 V c).arrAt 3 cfg1.N = mix3 (V c main_v29) (V c main_v44) (V c main_v15) :=
  (dat1 V c).arrAt_eq_of_cover 3 (mix3 (V c main_v29) (V c main_v44) (V c main_v15)) (fun t _ => flushed1_eq V c t) (cover1)

end Cert.KernelIdeal.Whole

end
-- ==== Proof.Region2.lean ====
/-
  Region 2 of the kernel: every grid point adds its 5000-row block of the mixed embedding to the same block of its first propagation and writes the block back.
  The 30 blocks tile the 150000 rows, so the array the region leaves is the entrywise sum of the two arrays it read.
-/
import proofs.«118849_j28003186770673_1_alg».proof.Proof.Gen.KernelIdeal.Frame
import proofs.«118849_j28003186770673_1_alg».proof.Proof.HostPipe
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- The body's stored value is the entrywise sum of its two loaded blocks (the two shape casts are identities). -/
theorem body2_eq (x0 x1 : Vec F S5000x64 .f32) : k2_pay1 x0 x1 = addf x0 x1 := by
  unfold k2_pay1
  simp only [shapeCast_self]

/-- All three windows of region 2 move together: block t is rows 5000 t … 5000 t + 4999, all 64 columns. -/
theorem maps2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) ≤ 29 ∧ win2_2.index t (1 : Fin 2) = 0 :=
  (by decide +kernel : ∀ t : Fin grid2.N, _)

/-- Every one of the 30 row blocks is some grid point's. -/
theorem onto2 : ∀ q : Fin 30, ∃ t : Fin cfg2.N, win2_2.index t = ![q.val, 0] :=
  (by decide +kernel : ∀ q : Fin 30, ∃ t : Fin grid2.N, win2_2.index t = ![q.val, 0])

/-- What grid point t writes back is block t of the entrywise sum of the two arrays the region read. -/
theorem flushed2_eq (c : Dev nD) (t : Fin cfg2.N) :
    (dat2 V c).flushed 2 t = ((cfg2.win 2).blk t).view.read (Elt F) (sum2 (V c main_v45) (V c main_v58)) := by
  show (cfg2.win 2).cut (grid2.coords t) ((dat2 V c).after 2 t) = _
  rw [after2_2]
  unfold out2_2
  rw [View.canon_unit_zero origin2]
  simp only [View.ld_unit_zero (S := S5000x64) origin2]
  rw [body2_eq]
  obtain ⟨e0, e1, e2, e3, e4, e5⟩ := maps2 t
  funext j
  show FloatOps.addf (V c main_v45 (((cfg2.win 0).blk t).view.emb j)) (V c main_v58 (((cfg2.win 1).blk t).view.emb j)) = FloatOps.addf (V c main_v45 (((cfg2.win 2).blk t).view.emb j)) (V c main_v58 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 64 + 1 * (j 1).val = win2_2.index t (1 : Fin 2) * 64 + 1 * (j 1).val; omega
  rw [h0, h1]

/-- An index of the array lies in point t's block iff each coordinate is in the block's range on its axis. -/
theorem mem_block2 (t : Fin cfg2.N) (i : S150000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v59).slice (win2_2.rect t)).set ↔ _
  rw [View.set_slice_whole, Rect.mem_set_unit]
  exact Iff.rfl

/-- The 30 blocks cover the array: row r lies in block r / 5000. -/
theorem cover2 (i : S150000x64.Idx) :
    ∃ t : Fin cfg2.N, (cfg2.win 2).flush t = true ∧ i ∈ ((cfg2.win 2).blk t).view.set := by
  have hi0 : (i 0).val < 150000 := (i 0).isLt
  have hi1 : (i 1).val < 64 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The array region 2 leaves: the entrywise sum of the two arrays it read, whatever they held at its entry. -/
theorem whole2 (c : Dev nD) : (dat2 V c).arrAt 2 cfg2.N = sum2 (V c main_v45) (V c main_v58) :=
  (dat2 V c).arrAt_eq_of_cover 2 (sum2 (V c main_v45) (V c main_v58)) (fun t _ => flushed2_eq V c t) (cover2)

end Cert.KernelIdeal.Whole

end
-- ==== Proof.Region3.lean ====
/-
  Region 3 of the kernel: every grid point adds its 5000-row block of the running sum to the same block of the second propagation and writes the block back.
  The 30 blocks tile the 150000 rows, so the array the region leaves is the entrywise sum of the two arrays it read.
-/
import proofs.«118849_j28003186770673_1_alg».proof.Proof.Gen.KernelIdeal.Frame
import proofs.«118849_j28003186770673_1_alg».proof.Proof.HostPipe
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin3 : (![0, 0] : Fin 2 → Nat) = fun _ => 0 := funext fun a => by fin_cases a <;> rfl

/-- The body's stored value is the entrywise sum of its two loaded blocks (the two shape casts are identities). -/
theorem body3_eq (x0 x1 : Vec F S5000x64 .f32) : k3_pay1 x0 x1 = addf x0 x1 := by
  unfold k3_pay1
  simp only [shapeCast_self]

/-- All three windows of region 3 move together: block t is rows 5000 t … 5000 t + 4999, all 64 columns. -/
theorem maps3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 29 ∧ win3_2.index t (1 : Fin 2) = 0 :=
  (by decide +kernel : ∀ t : Fin grid3.N, _)

/-- Every one of the 30 row blocks is some grid point's. -/
theorem onto3 : ∀ q : Fin 30, ∃ t : Fin cfg3.N, win3_2.index t = ![q.val, 0] :=
  (by decide +kernel : ∀ q : Fin 30, ∃ t : Fin grid3.N, win3_2.index t = ![q.val, 0])

/-- What grid point t writes back is block t of the entrywise sum of the two arrays the region read. -/
theorem flushed3_eq (c : Dev nD) (t : Fin cfg3.N) :
    (dat3 V c).flushed 2 t = ((cfg3.win 2).blk t).view.read (Elt F) (sum2 (V c main_v59) (V c main_v72)) := by
  show (cfg3.win 2).cut (grid3.coords t) ((dat3 V c).after 2 t) = _
  rw [after3_2]
  unfold out3_2
  rw [View.canon_unit_zero origin3]
  simp only [View.ld_unit_zero (S := S5000x64) origin3]
  rw [body3_eq]
  obtain ⟨e0, e1, e2, e3, e4, e5⟩ := maps3 t
  funext j
  show FloatOps.addf (V c main_v59 (((cfg3.win 0).blk t).view.emb j)) (V c main_v72 (((cfg3.win 1).blk t).view.emb j)) = FloatOps.addf (V c main_v59 (((cfg3.win 2).blk t).view.emb j)) (V c main_v72 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 64 + 1 * (j 1).val = win3_2.index t (1 : Fin 2) * 64 + 1 * (j 1).val; omega
  rw [h0, h1]

/-- An index of the array lies in point t's block iff each coordinate is in the block's range on its axis. -/
theorem mem_block3 (t : Fin cfg3.N) (i : S150000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v73).slice (win3_2.rect t)).set ↔ _
  rw [View.set_slice_whole, Rect.mem_set_unit]
  exact Iff.rfl

/-- The 30 blocks cover the array: row r lies in block r / 5000. -/
theorem cover3 (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  obtain ⟨t, ht⟩ := onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The array region 3 leaves: the entrywise sum of the two arrays it read, whatever they held at its entry. -/
theorem whole3 (c : Dev nD) : (dat3 V c).arrAt 2 cfg3.N = sum2 (V c main_v59) (V c main_v72) :=
  (dat3 V c).arrAt_eq_of_cover 2 (sum2 (V c main_v59) (V c main_v72)) (fun t _ => flushed3_eq V c t) (cover3)

end Cert.KernelIdeal.Whole

end
-- ==== Proof.LibCut.lean ====
/-
  A straight line of host operations cut in two. What the buffers hold after the whole line is what they hold after the
  tail run from the contents the head leaves; and a buffer the tail does not write holds, after the whole line, what the
  head left in it. Reading a long line tail by tail, each tail from contents left abstract, keeps every reading as small
  as the tail, however deeply the line's results nest. General in the signature, the values and the operations.
-/
import Idealize.ShloMosaic.Lib.StableHlo.Run

noncomputable section

namespace Cert.LibCut

open Idealize.ShloMosaic Idealize.ShloMosaic.StableHlo

variable {τ : Topo} {sig : RefSig} {Val : EltTy → Type}

/-- Two lines one after the other: the second read from the contents the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first k operations: the tail read from what the head leaves. -/
theorem after_cut (k : Nat) (L : List (HloOp τ sig Val)) (V : Valuation τ sig Val) :
    after L V = after (L.drop k) (after (L.take k) V) := by
  conv_lhs => rw [← List.take_append_drop k L]
  exact after_append _ _ _

/-- A buffer that no operation of the tail writes holds after the whole line what the head left in it. -/
theorem after_cut_kept (k : Nat) (L : List (HloOp τ sig Val)) (V : Valuation τ sig Val) {b : DevRef τ sig}
    (h : ∀ op ∈ L.drop k, b ∉ op.writes) : after L V b = after (L.take k) V b :=
  (congrFun (after_cut k L V) b).trans (after_of_forall_not_mem _ _ h)

end Cert.LibCut

end
-- ==== Proof.Fold.lean ====
/-
  What each buffer holds at each boundary between @main's segments, followed from the launch to the return.
  A stretch of host operations rewrites the buffers it writes by its operations' functions and keeps the rest;
  a region rewrites its output array to what its write-backs leave (regions 1–3: an entrywise combination of
  the arrays it read) and keeps everything else. The two results come out as the top 100000 and the bottom
  50000 rows of  acc = z + A z + A (A z),  z = e1 + e2 + 1·eImg,  with e1 = A [u; P], e2 = A [top e1; i],
  eImg = B [u; i], where P is whatever region 0 leaves in its output array.
-/
import proofs.«118849_j28003186770673_1_alg».proof.Proof.Gen.KernelIdeal.Frame
import proofs.«118849_j28003186770673_1_alg».proof.Proof.HostPipe
import proofs.«118849_j28003186770673_1_alg».proof.Proof.Region1
import proofs.«118849_j28003186770673_1_alg».proof.Proof.Region2
import proofs.«118849_j28003186770673_1_alg».proof.Proof.Region3
import proofs.«118849_j28003186770673_1_alg».proof.Proof.LibCut

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- A buffer that no operation of the named stretch writes holds after it what it held before. -/
macro "unwritten_by " ops:ident : tactic => `(tactic|
  exact StableHlo.after_of_forall_not_mem _ _ (List.forall_iff_forall_mem.mp (by
    simp only [$ops:ident, List.drop_succ_cons, List.drop_zero, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))))

/-! ## The arguments stay as launched up to each boundary that reads them -/

theorem arg0_at2 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)
theorem arg1_at2 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem arg2_at2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem arg3_at2 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem arg4_at2 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem arg5_at2 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem arg7_at2 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem arg8_at2 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem arg0_at4 (c : Dev nD) : W4 m ρ c (Proc.devRef .tc main_arg0) = m ((c : Thread nD τ).loc main_arg0) :=
  (W4_of_ne m ρ c main_arg0 (by decide)).trans (((by unwritten_by hostOps1) : W3 m ρ c (Proc.devRef .tc main_arg0) = W2 m ρ c (Proc.devRef .tc main_arg0)).trans (arg0_at2 m ρ c))
theorem arg1_at4 (c : Dev nD) : W4 m ρ c (Proc.devRef .tc main_arg1) = m ((c : Thread nD τ).loc main_arg1) :=
  (W4_of_ne m ρ c main_arg1 (by decide)).trans (((by unwritten_by hostOps1) : W3 m ρ c (Proc.devRef .tc main_arg1) = W2 m ρ c (Proc.devRef .tc main_arg1)).trans (arg1_at2 m ρ c))
theorem arg2_at4 (c : Dev nD) : W4 m ρ c (Proc.devRef .tc main_arg2) = m ((c : Thread nD τ).loc main_arg2) :=
  (W4_of_ne m ρ c main_arg2 (by decide)).trans (((by unwritten_by hostOps1) : W3 m ρ c (Proc.devRef .tc main_arg2) = W2 m ρ c (Proc.devRef .tc main_arg2)).trans (arg2_at2 m ρ c))
theorem arg0_at6 (c : Dev nD) : W6 m ρ c (Proc.devRef .tc main_arg0) = m ((c : Thread nD τ).loc main_arg0) :=
  (W6_of_ne m ρ c main_arg0 (by decide)).trans (((by unwritten_by hostOps2) : W5 m ρ c (Proc.devRef .tc main_arg0) = W4 m ρ c (Proc.devRef .tc main_arg0)).trans (arg0_at4 m ρ c))
theorem arg1_at6 (c : Dev nD) : W6 m ρ c (Proc.devRef .tc main_arg1) = m ((c : Thread nD τ).loc main_arg1) :=
  (W6_of_ne m ρ c main_arg1 (by decide)).trans (((by unwritten_by hostOps2) : W5 m ρ c (Proc.devRef .tc main_arg1) = W4 m ρ c (Proc.devRef .tc main_arg1)).trans (arg1_at4 m ρ c))
theorem arg2_at6 (c : Dev nD) : W6 m ρ c (Proc.devRef .tc main_arg2) = m ((c : Thread nD τ).loc main_arg2) :=
  (W6_of_ne m ρ c main_arg2 (by decide)).trans (((by unwritten_by hostOps2) : W5 m ρ c (Proc.devRef .tc main_arg2) = W4 m ρ c (Proc.devRef .tc main_arg2)).trans (arg2_at4 m ρ c))

/-! ## What region 0 finds: the image features and the weights as launched, the bias recast as a [1, 64] row -/

theorem feats_in (c : Dev nD) : V1 m ρ c main_arg6 = m ((c : Thread nD τ).loc main_arg6) := by
  show StableHlo.after hostOps0 (W0 m ρ c) (Proc.devRef .tc main_arg6) = _
  after_results

theorem weights_in (c : Dev nD) : V1 m ρ c main_arg9 = m ((c : Thread nD τ).loc main_arg9) := by
  show StableHlo.after hostOps0 (W0 m ρ c) (Proc.devRef .tc main_arg9) = _
  after_results

theorem bias_in (c : Dev nD) : V1 m ρ c main_v0 = shapeCast S1x64 (m ((c : Thread nD τ).loc main_arg10)) shapeCasts_S64_S1x64 := by
  show StableHlo.after hostOps0 (W0 m ρ c) (Proc.devRef .tc main_v0) = _
  after_results; rfl

/-! ## Region 0's output, then the first long stretch: the three sparse products -/

/-- Region 0's output array at its exit: what its write-backs leave. -/
theorem feats_at2 (c : Dev nD) : W2 m ρ c (Proc.devRef .tc main_v1) = (dat0 (V1 m ρ) c).arrAt 3 cfg0.N := W2_arr m ρ c 3

theorem e1_at3 (c : Dev nD) : W3 m ρ c (Proc.devRef .tc main_v29)
    = spmmAdj (m ((c : Thread nD τ).loc main_arg0)) (m ((c : Thread nD τ).loc main_arg1)) (m ((c : Thread nD τ).loc main_arg2)) (stack (m ((c : Thread nD τ).loc main_arg7)) ((dat0 (V1 m ρ) c).arrAt 3 cfg0.N)) := by
  rw [← arg0_at2 m ρ c, ← arg1_at2 m ρ c, ← arg2_at2 m ρ c, ← arg7_at2 m ρ c, ← feats_at2 m ρ c]
  show StableHlo.after hostOps1 (W2 m ρ c) (Proc.devRef .tc main_v29) = _
  after_results_simp
  (try unfold spmmAdj); (try unfold spmmImg); (try unfold stack); (try unfold top)
  rfl

/-- The second half of the stretch (from the slice of e1 on), read from any contents: the product of the stacked
    [top of e1; item embeddings]. -/
theorem e2_tail (U : Valuation τ sig (Elt F)) : StableHlo.after ((hostOps1 (F := F)).drop 34) U (Proc.devRef .tc main_v44)
    = spmmAdj (U (Proc.devRef .tc main_arg0)) (U (Proc.devRef .tc main_arg1)) (U (Proc.devRef .tc main_arg2))
        (stack (top (U (Proc.devRef .tc main_v29))) (U (Proc.devRef .tc main_arg8))) := by
  simp only [hostOps1, List.drop_succ_cons, List.drop_zero]
  after_results_simp
  unfold spmmAdj stack top
  rfl

/-- The five buffers the second half reads are not written by it: the first half left them as the whole stretch does. -/
theorem half_kept (c : Dev nD) (b : Ref sig .tc)
    (hb : ∀ op ∈ (hostOps1 (F := F)).drop 34, Proc.devRef (τ := τ) .tc b ∉ op.writes) :
    StableHlo.after ((hostOps1 (F := F)).take 34) (W2 m ρ c) (Proc.devRef .tc b) = W3 m ρ c (Proc.devRef .tc b) :=
  (Cert.LibCut.after_cut_kept 34 hostOps1 (W2 m ρ c) hb).symm

theorem arg0_at3 (c : Dev nD) : W3 m ρ c (Proc.devRef .tc main_arg0) = m ((c : Thread nD τ).loc main_arg0) :=
  ((by unwritten_by hostOps1) : W3 m ρ c (Proc.devRef .tc main_arg0) = W2 m ρ c (Proc.devRef .tc main_arg0)).trans (arg0_at2 m ρ c)
theorem arg1_at3 (c : Dev nD) : W3 m ρ c (Proc.devRef .tc main_arg1) = m ((c : Thread nD τ).loc main_arg1) :=
  ((by unwritten_by hostOps1) : W3 m ρ c (Proc.devRef .tc main_arg1) = W2 m ρ c (Proc.devRef .tc main_arg1)).trans (arg1_at2 m ρ c)
theorem arg2_at3 (c : Dev nD) : W3 m ρ c (Proc.devRef .tc main_arg2) = m ((c : Thread nD τ).loc main_arg2) :=
  ((by unwritten_by hostOps1) : W3 m ρ c (Proc.devRef .tc main_arg2) = W2 m ρ c (Proc.devRef .tc main_arg2)).trans (arg2_at2 m ρ c)
theorem arg8_at3 (c : Dev nD) : W3 m ρ c (Proc.devRef .tc main_arg8) = m ((c : Thread nD τ).loc main_arg8) :=
  ((by unwritten_by hostOps1) : W3 m ρ c (Proc.devRef .tc main_arg8) = W2 m ρ c (Proc.devRef .tc main_arg8)).trans (arg8_at2 m ρ c)

theorem e2_at3 (c : Dev nD) : W3 m ρ c (Proc.devRef .tc main_v44)
    = spmmAdj (m ((c : Thread nD τ).loc main_arg0)) (m ((c : Thread nD τ).loc main_arg1)) (m ((c : Thread nD τ).loc main_arg2)) (stack (top (W3 m ρ c (Proc.devRef .tc main_v29))) (m ((c : Thread nD τ).loc main_arg8))) := by
  have hcut : W3 m ρ c (Proc.devRef .tc main_v44)
      = StableHlo.after ((hostOps1 (F := F)).drop 34) (StableHlo.after ((hostOps1 (F := F)).take 34) (W2 m ρ c)) (Proc.devRef .tc main_v44) :=
    congrFun (Cert.LibCut.after_cut 34 hostOps1 (W2 m ρ c)) _
  have kept : ∀ op ∈ (hostOps1 (F := F)).drop 34,
      Proc.devRef (τ := τ) .tc main_arg0 ∉ op.writes ∧ Proc.devRef (τ := τ) .tc main_arg1 ∉ op.writes ∧ Proc.devRef (τ := τ) .tc main_arg2 ∉ op.writes
        ∧ Proc.devRef (τ := τ) .tc main_arg8 ∉ op.writes ∧ Proc.devRef (τ := τ) .tc main_v29 ∉ op.writes :=
    List.forall_iff_forall_mem.mp (by
      simp only [hostOps1, List.drop_succ_cons, List.drop_zero, List.Forall, StableHlo.nullary_writes, StableHlo.unary_writes, StableHlo.binary_writes,
        StableHlo.ternary_writes, Finset.mem_singleton]
      repeat' apply And.intro
      all_goals exact StableHlo.devRef_ne_of_ne (by decide))
  rw [hcut, e2_tail,
    half_kept m ρ c main_arg0 (fun op h => (kept op h).1), half_kept m ρ c main_arg1 (fun op h => (kept op h).2.1),
    half_kept m ρ c main_arg2 (fun op h => (kept op h).2.2.1), half_kept m ρ c main_arg8 (fun op h => (kept op h).2.2.2.1),
    half_kept m ρ c main_v29 (fun op h => (kept op h).2.2.2.2),
    arg0_at3, arg1_at3, arg2_at3, arg8_at3]

theorem eImg_at3 (c : Dev nD) : W3 m ρ c (Proc.devRef .tc main_v15)
    = spmmImg (m ((c : Thread nD τ).loc main_arg3)) (m ((c : Thread nD τ).loc main_arg4)) (m ((c : Thread nD τ).loc main_arg5)) (stack (m ((c : Thread nD τ).loc main_arg7)) (m ((c : Thread nD τ).loc main_arg8))) := by
  rw [← arg3_at2 m ρ c, ← arg4_at2 m ρ c, ← arg5_at2 m ρ c, ← arg7_at2 m ρ c, ← arg8_at2 m ρ c]
  show StableHlo.after hostOps1 (W2 m ρ c) (Proc.devRef .tc main_v15) = _
  after_results_simp
  (try unfold spmmAdj); (try unfold spmmImg); (try unfold stack); (try unfold top)
  rfl

/-! ## Region 1 mixes the three; one propagation step; region 2 adds it on -/

/-- The mixed embedding z, as region 1 leaves it. -/
theorem z_at4 (c : Dev nD) : W4 m ρ c (Proc.devRef .tc main_v45)
    = mix3 (W3 m ρ c (Proc.devRef .tc main_v29)) (W3 m ρ c (Proc.devRef .tc main_v44)) (W3 m ρ c (Proc.devRef .tc main_v15)) :=
  (W4_arr m ρ c 3).trans (whole1 (V3 m ρ) c)

theorem z_at5 (c : Dev nD) : W5 m ρ c (Proc.devRef .tc main_v45) = W4 m ρ c (Proc.devRef .tc main_v45) := by
  unwritten_by hostOps2

theorem c1_at5 (c : Dev nD) : W5 m ρ c (Proc.devRef .tc main_v58)
    = spmmAdj (m ((c : Thread nD τ).loc main_arg0)) (m ((c : Thread nD τ).loc main_arg1)) (m ((c : Thread nD τ).loc main_arg2)) (W4 m ρ c (Proc.devRef .tc main_v45)) := by
  rw [← arg0_at4 m ρ c, ← arg1_at4 m ρ c, ← arg2_at4 m ρ c]
  show StableHlo.after hostOps2 (W4 m ρ c) (Proc.devRef .tc main_v58) = _
  after_results_simp
  (try unfold spmmAdj); (try unfold spmmImg); (try unfold stack); (try unfold top)
  rfl

/-- The running sum after the first step, as region 2 leaves it. -/
theorem acc1_at6 (c : Dev nD) : W6 m ρ c (Proc.devRef .tc main_v59)
    = sum2 (W5 m ρ c (Proc.devRef .tc main_v45)) (W5 m ρ c (Proc.devRef .tc main_v58)) :=
  (W6_arr m ρ c 2).trans (whole2 (V5 m ρ) c)

/-- Region 2 only reads the propagated embedding: it leaves it as it found it. -/
theorem c1_at6 (c : Dev nD) : W6 m ρ c (Proc.devRef .tc main_v58) = W5 m ρ c (Proc.devRef .tc main_v58) :=
  (W6_arr m ρ c 1).trans (((dat2 (V5 m ρ) c).arrAt_in 1 rfl _).trans (A_eq2 (V5 m ρ) c 1))

/-! ## The second propagation step; region 3 adds it on; the two slices -/

theorem acc1_at7 (c : Dev nD) : W7 m ρ c (Proc.devRef .tc main_v59) = W6 m ρ c (Proc.devRef .tc main_v59) := by
  unwritten_by hostOps3

theorem c2_at7 (c : Dev nD) : W7 m ρ c (Proc.devRef .tc main_v72)
    = spmmAdj (m ((c : Thread nD τ).loc main_arg0)) (m ((c : Thread nD τ).loc main_arg1)) (m ((c : Thread nD τ).loc main_arg2)) (W6 m ρ c (Proc.devRef .tc main_v58)) := by
  rw [← arg0_at6 m ρ c, ← arg1_at6 m ρ c, ← arg2_at6 m ρ c]
  show StableHlo.after hostOps3 (W6 m ρ c) (Proc.devRef .tc main_v72) = _
  after_results_simp
  (try unfold spmmAdj); (try unfold spmmImg); (try unfold stack); (try unfold top)
  rfl

/-- The running sum after the second step, as region 3 leaves it. -/
theorem acc2_at8 (c : Dev nD) : W8 m ρ c (Proc.devRef .tc main_v73)
    = sum2 (W7 m ρ c (Proc.devRef .tc main_v59)) (W7 m ρ c (Proc.devRef .tc main_v72)) :=
  (W8_arr m ρ c 2).trans (whole3 (V7 m ρ) c)

theorem out0_at9 (c : Dev nD) : W9 m ρ c (Proc.devRef .tc main_v74) = top (W8 m ρ c (Proc.devRef .tc main_v73)) := by
  show StableHlo.after hostOps4 (W8 m ρ c) (Proc.devRef .tc main_v74) = _
  after_results
  rfl

theorem out1_at9 (c : Dev nD) : W9 m ρ c (Proc.devRef .tc main_v75) = bottom (W8 m ρ c (Proc.devRef .tc main_v73)) := by
  show StableHlo.after hostOps4 (W8 m ρ c) (Proc.devRef .tc main_v75) = _
  after_results
  rfl

/-! ## The whole pipeline -/

/-- The last boundary's contents at the running sum: the pipeline of the launch arguments and region 0's output. -/
theorem acc_eq (c : Dev nD) : W8 m ρ c (Proc.devRef .tc main_v73)
    = pipeline (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) ((dat0 (V1 m ρ) c).arrAt 3 cfg0.N) := by
  rw [acc2_at8, acc1_at7, acc1_at6, c2_at7, c1_at6, c1_at5, z_at5, z_at4, e2_at3, e1_at3, eImg_at3]
  rfl

end Cert.KernelIdeal.Whole

end
-- ==== Proof.NormSpec.lean ====
/-
  The projection-and-normalization of one row of image features, on the extended reals.

  A row x (1024 entries) is mapped through the weight matrix W (1024 × 64) and a bias b to 64 features,
  f g = Σₖ x k · W (k, g) + b g, and the features are divided by the larger of the row's Euclidean norm
  √(Σ_d f d · f d) and a small positive literal. Nothing here depends on which row of which array x is:
  both programs compute this function of the same row.
-/
import Idealize.ShloMosaic.PureOps.Ideal
import Idealize.ShloMosaic.Lib.ValueIdx

noncomputable section

open scoped BigOperators

namespace Cert.NormSpec

open Idealize.ShloMosaic Idealize.ShloMosaic.ValueIdx

/-- Feature g of a row: the row times column g of the weights, plus bias g. -/
def rowFeat (x : Fin 1024 → EReal) (W : (⟨2, ![1024, 64]⟩ : Shape).Idx → EReal) (b : Fin 64 → EReal) (g : Fin 64) : EReal :=
  (∑ k : Fin 1024, x k * W (ix2 k g)) + b g

/-- The row's squared Euclidean length. -/
def rowSq (x : Fin 1024 → EReal) (W : (⟨2, ![1024, 64]⟩ : Shape).Idx → EReal) (b : Fin 64 → EReal) : EReal :=
  ∑ d : Fin 64, rowFeat x W b d * rowFeat x W b d

/-- Feature g divided by the larger of the row's length and the literal 0x2B8CBCCC (about 1e-12). -/
def rowUnit (x : Fin 1024 → EReal) (W : (⟨2, ![1024, 64]⟩ : Shape).Idx → EReal) (b : Fin 64 → EReal) (g : Fin 64) : EReal :=
  Ideal.div (rowFeat x W b g) (max (Ideal.sqrt (rowSq x W b)) (Ideal.ofBits .f32 0x2B8CBCCC#32))

end Cert.NormSpec

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.Region0Body.lean ====
/-
  Region 0's body, read at an entry on the extended reals: entry (r, g) of the value it stores is the
  projection-and-normalization `rowUnit` of row r of its image-feature block, column g. The change to
  bf16 before the matrix product is the identity here; the product into the zero accumulator is the sum over k;
  the bias row is repeated down the rows; the lane sum of the squares over the 64 columns, kept as a column and
  repeated along the columns, is the row's squared length at every column.
-/
import proofs.«118849_j28003186770673_1_alg».proof.Proof.Gen.KernelIdeal.Skeleton
import proofs.«118849_j28003186770673_1_alg».proof.Proof.NormSpec
import proofs.«118849_j28003186770673_1_alg».proof.Proof.LibPlainMatmul
import proofs.«118849_j28003186770673_1_alg».proof.Proof.LibBlockLayout
import proofs.«118849_j28003186770673_1_alg».proof.Proof.LibKeepdims

noncomputable section

open scoped BigOperators

namespace Cert.KernelIdeal.Whole

open Cert.KernelIdeal Cert.KernelIdeal.Gen Cert.NormSpec Idealize.ShloMosaic Idealize.ShloMosaic.TcCoe Idealize.ShloMosaic.ValueIdx

/-- The biased product at (r, g): row r of the block through the weights, plus the bias row's entry g. -/
theorem feat_at (x0 : Vec Ideal S1000x1024 .f32) (x1 : Vec Ideal S1024x64 .f32) (x2 : Vec Ideal S1x64 .f32) (r : Fin 1000) (g : Fin 64) :
    addf (F := Ideal) (matmul dot_S1000x1024_S1024x64_S1000x64_1_0_0_1_n_n none (truncf .bf16 x0 bitsLt_bf16_f32) (truncf .bf16 x1 bitsLt_bf16_f32) (constant S1000x64 .f32 0x00000000#32))
        (broadcastTo S1000x64 (shapeCast S1x64 x2 shapeCasts_S1x64_S1x64) broadcasts_S1x64_S1000x64) (ix2 r g)
      = rowFeat (fun k => x0 (ix2 r k)) x1 (fun d => x2 (ix2 (0 : Fin 1) d)) g := by
  show (FloatOps.matmul (F := Ideal) (DotDims.plain 1000 1024 64) none (truncf .bf16 x0 bitsLt_bf16_f32) (truncf .bf16 x1 bitsLt_bf16_f32) (constant ⟨2, ![1000, 64]⟩ .f32 0x00000000#32) (ix2 r g) : EReal)
      + broadcastTo ⟨2, ![1000, 64]⟩ (shapeCast S1x64 x2 shapeCasts_S1x64_S1x64) broadcasts_S1x64_S1000x64 (ix2 r g) = _
  rw [Cert.LibPlainMatmul.matmul_zero_apply, Cert.LibBlockLayout.rowBroadcast_at, shapeCast_self]
  rfl

/-- The biased product as a whole block (the value the body squares and then divides). -/
def pre0 (x0 : Vec Ideal S1000x1024 .f32) (x1 : Vec Ideal S1024x64 .f32) (x2 : Vec Ideal S1x64 .f32) : FVec Ideal S1000x64 .f32 :=
  addf (F := Ideal) (matmul dot_S1000x1024_S1024x64_S1000x64_1_0_0_1_n_n none (truncf .bf16 x0 bitsLt_bf16_f32) (truncf .bf16 x1 bitsLt_bf16_f32) (constant S1000x64 .f32 0x00000000#32))
    (broadcastTo S1000x64 (shapeCast S1x64 x2 shapeCasts_S1x64_S1x64) broadcasts_S1x64_S1000x64)

theorem pre0_at (x0 : Vec Ideal S1000x1024 .f32) (x1 : Vec Ideal S1024x64 .f32) (x2 : Vec Ideal S1x64 .f32) (r : Fin 1000) (g : Fin 64) :
    pre0 x0 x1 x2 (ix2 r g) = rowFeat (fun k => x0 (ix2 r k)) x1 (fun d => x2 (ix2 (0 : Fin 1) d)) g :=
  feat_at x0 x1 x2 r g

/-- The lane sum of the squares over the 64 columns, at row r, is the row's squared length. -/
theorem sq0_at (x0 : Vec Ideal S1000x1024 .f32) (x1 : Vec Ideal S1024x64 .f32) (x2 : Vec Ideal S1x64 .f32) (r : Fin 1000) :
    multiReduction (F := Ideal) .add [1] S1000 (mulf (pre0 x0 x1 x2) (pre0 x0 x1 x2)) 0x00000000#32 reduces_S1000x64_S1000 (.inl rfl) rfl (ix1 r)
      = rowSq (fun k => x0 (ix2 r k)) x1 (fun d => x2 (ix2 (0 : Fin 1) d)) := by
  refine (Cert.LibKeepdims.multiReduction_add_rows (mulf (pre0 x0 x1 x2) (pre0 x0 x1 x2)) 0x00000000#32 reduces_S1000x64_S1000 (.inl rfl) rfl r).trans ?_
  unfold rowSq
  refine Finset.sum_congr rfl fun d _ => ?_
  show pre0 x0 x1 x2 (ix2 r d) * pre0 x0 x1 x2 (ix2 r d) = _
  rw [pre0_at]

/-- Entry (r, g) of the value the body stores: the projection-and-normalization of block row r, column g. -/
theorem body0_at (x0 : Vec Ideal S1000x1024 .f32) (x1 : Vec Ideal S1024x64 .f32) (x2 : Vec Ideal S1x64 .f32) (r : Fin 1000) (g : Fin 64) :
    k0_pay1 (F := Ideal) x0 x1 x2 (ix2 r g) = rowUnit (fun k => x0 (ix2 r k)) x1 (fun d => x2 (ix2 (0 : Fin 1) d)) g := by
  show Ideal.div (pre0 x0 x1 x2 (ix2 r g))
      (broadcastTo S1000x64 (maximumf (F := Ideal) (sqrt (shapeCast S1000x1 (multiReduction (F := Ideal) .add [1] S1000 (mulf (pre0 x0 x1 x2) (pre0 x0 x1 x2)) 0x00000000#32 reduces_S1000x64_S1000 (.inl rfl) rfl) shapeCasts_S1000_S1000x1))
        (broadcast S1000x1 (Scalar.ofBits (F := Ideal) .f32 0x2B8CBCCC#32))) broadcasts_S1000x1_S1000x64 (ix2 r g)) = _
  rw [Cert.LibKeepdims.broadcastTo_a1_ab_apply]
  show Ideal.div (pre0 x0 x1 x2 (ix2 r g))
      (max (Ideal.sqrt (shapeCast S1000x1 (multiReduction (F := Ideal) .add [1] S1000 (mulf (pre0 x0 x1 x2) (pre0 x0 x1 x2)) 0x00000000#32 reduces_S1000x64_S1000 (.inl rfl) rfl) shapeCasts_S1000_S1000x1 (ix2 r (0 : Fin 1))))
        (Ideal.ofBits .f32 0x2B8CBCCC#32)) = _
  rw [Cert.LibKeepdims.shapeCast_a_a1_apply, sq0_at, pre0_at]
  rfl

/-- The same at any index of the block, its coordinates taken as numbers below the literal extents. -/
theorem body0_apply (x0 : Vec Ideal S1000x1024 .f32) (x1 : Vec Ideal S1024x64 .f32) (x2 : Vec Ideal S1x64 .f32) (y : S1000x64.Idx) :
    k0_pay1 (F := Ideal) x0 x1 x2 y
      = rowUnit (fun k => x0 (ix2 (⟨(y 0).val, (y 0).isLt⟩ : Fin 1000) k)) x1 (fun d => x2 (ix2 (0 : Fin 1) d)) (⟨(y 1).val, (y 1).isLt⟩ : Fin 64) := by
  have hy : y = ix2 (⟨(y 0).val, (y 0).isLt⟩ : Fin 1000) (⟨(y 1).val, (y 1).isLt⟩ : Fin 64) :=
    funext fun a => by match a with | ⟨0, _⟩ => rfl | ⟨1, _⟩ => rfl
  exact (congrArg (k0_pay1 (F := Ideal) x0 x1 x2) hy).trans (body0_at x0 x1 x2 _ _)

end Cert.KernelIdeal.Whole

end
-- ==== Proof.Region0.lean ====
/-
  Region 0 of the kernel, as a whole array on the extended reals. Grid point t takes rows 1000 t … 1000 t + 999 of
  the image features, the whole weight matrix and the whole bias row, and writes back the projection-and-
  normalization of each of its rows. A row's result depends on that row alone, so block t of the output is the
  restriction of one function of the three whole arrays; the 50 blocks tile the 50000 rows.
-/
import proofs.«118849_j28003186770673_1_alg».proof.Proof.Gen.KernelIdeal.Frame
import proofs.«118849_j28003186770673_1_alg».proof.Proof.Region0Body
import Idealize.ShloMosaic.Lib.Pipeline.Value

set_option maxRecDepth 16384

noncomputable section

open scoped BigOperators

namespace Cert.KernelIdeal.Whole

open Cert.KernelIdeal Cert.KernelIdeal.Gen Cert.NormSpec Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin0 : (![0, 0] : Fin 2 → Nat) = fun _ => 0 := funext fun a => by fin_cases a <;> rfl

/-- The projection-and-normalization of every row of X, with the bias kept as a [1, 64] row. -/
def projUnit (X : S50000x1024.Idx → EReal) (W : S1024x64.Idx → EReal) (B : S1x64.Idx → EReal) : S50000x64.Idx → EReal :=
  fun i => rowUnit (fun k => X (ix2 (⟨(i 0).val, (i 0).isLt⟩ : Fin 50000) k)) W (fun d => B (ix2 (0 : Fin 1) d)) (⟨(i 1).val, (i 1).isLt⟩ : Fin 64)

theorem rowUnit_congr {x x' : Fin 1024 → EReal} {W W' : (⟨2, ![1024, 64]⟩ : Shape).Idx → EReal} {b b' : Fin 64 → EReal} {g g' : Fin 64}
    (hx : x = x') (hW : W = W') (hb : b = b') (hg : g = g') : rowUnit x W b g = rowUnit x' W' b' g' := by
  subst hx hW hb hg; rfl

/-- The index maps: the feature and output windows take row block t; the weights and the bias are one block. -/
theorem maps0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 49 ∧ win0_3.index t (1 : Fin 2) = 0 :=
  (by decide +kernel : ∀ t : Fin grid0.N, _)

/-- Every one of the 50 row blocks is some grid point's. -/
theorem onto0 : ∀ q : Fin 50, ∃ t : Fin cfg0.N, win0_3.index t = ![q.val, 0] :=
  (by decide +kernel : ∀ q : Fin 50, ∃ t : Fin grid0.N, win0_3.index t = ![q.val, 0])

/-- What grid point t writes back is block t of the projection-and-normalization of the three arrays the region read. -/
theorem flushed0_eq (c : Dev nD) (t : Fin cfg0.N) :
    (dat0 V c).flushed 3 t = ((cfg0.win 3).blk t).view.read (Elt Ideal) (projUnit (V c main_arg6) (V c main_arg9) (V c main_v0)) := by
  show (cfg0.win 3).cut (grid0.coords t) ((dat0 V c).after 3 t) = _
  rw [after0_3]
  unfold out0_3
  rw [View.canon_unit_zero origin0]
  simp only [View.ld_unit_zero (S := S1000x1024) origin0, View.ld_unit_zero (S := S1024x64) origin0, View.ld_unit_zero (S := S1x64) origin0]
  obtain ⟨e0, e1, e2, e3, e4, e5, e6, e7⟩ := maps0 t
  funext j
  refine (body0_apply _ _ _ j).trans ?_
  show _ = projUnit (V c main_arg6) (V c main_arg9) (V c main_v0) (((cfg0.win 3).blk t).view.emb j)
  unfold projUnit
  refine rowUnit_congr (funext fun k => ?_) (funext fun y => ?_) (funext fun d => ?_) (Fin.ext ?_)
  · show V c main_arg6 (((cfg0.win 0).blk t).view.emb (ix2 (⟨(j 0).val, (j 0).isLt⟩ : Fin 1000) k)) = _
    refine congrArg (V c main_arg6) (funext fun a => Fin.ext ?_)
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 1024 + 1 * k.val = k.val; omega
  · show V c main_arg9 (((cfg0.win 1).blk t).view.emb y) = V c main_arg9 y
    refine congrArg (V c main_arg9) (funext fun a => Fin.ext ?_)
    match a with
    | ⟨0, _⟩ => show win0_1.index t (0 : Fin 2) * 1024 + 1 * (y 0).val = (y 0).val; omega
    | ⟨1, _⟩ => show win0_1.index t (1 : Fin 2) * 64 + 1 * (y 1).val = (y 1).val; omega
  · show V c main_v0 (((cfg0.win 2).blk t).view.emb (ix2 (0 : Fin 1) d)) = V c main_v0 (ix2 (0 : Fin 1) d)
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * d.val = d.val; omega
  · show (j 1).val = win0_3.index t (1 : Fin 2) * 64 + 1 * (j 1).val
    omega

/-- An index of the array lies in point t's block iff each coordinate is in the block's range on its axis. -/
theorem mem_block0 (t : Fin cfg0.N) (i : S50000x64.Idx) :
    i ∈ ((cfg0.win 3).blk t).view.set ↔ ∀ a : Fin 2, win0_3.index t a * S1000x64.size a ≤ (i a).val ∧ (i a).val < win0_3.index t a * S1000x64.size a + S1000x64.size a := by
  show i ∈ ((View.whole main_v1).slice (win0_3.rect t)).set ↔ _
  rw [View.set_slice_whole, Rect.mem_set_unit]
  exact Iff.rfl

/-- The 50 blocks cover the array: row r lies in block r / 1000. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := onto0 ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 64 ≤ (i 1).val ∧ (i 1).val < win0_3.index t (1 : Fin 2) * 64 + 64; omega

/-- The array region 0 leaves: the projection-and-normalization of the three arrays it read. -/
theorem whole0 (c : Dev nD) : (dat0 V c).arrAt 3 cfg0.N = projUnit (V c main_arg6) (V c main_arg9) (V c main_v0) :=
  (dat0 V c).arrAt_eq_of_cover 3 (projUnit (V c main_arg6) (V c main_arg9) (V c main_v0)) (fun t _ => flushed0_eq V c t) (cover0)

end Cert.KernelIdeal.Whole

end
-- ==== Proof.KernelRun.lean ====
/-
  The kernel's run with its two results named. The launch over @main's nine segments (five stretches of host
  operations around four pipelined regions) ends with every unscoped buffer at the last boundary's contents; read at
  the two result buffers and at the eleven argument buffers this says: every weakly fair execution terminates
  without a fault, the results hold what the fold of the segments leaves there, and the arguments are unchanged.
-/
import proofs.«118849_j28003186770673_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two result arrays end at the contents the
    last segment boundary gives them, and the argument arrays end as launched. -/
theorem run_results : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v74 (by decide)),
       h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Whole

end
-- ==== Proof.RefPipe.lean ====
/-
  The reference's @main after its feature normalization, as whole-array functions at any float instance
  (the same definitions as for the kernel's host side, over the reference program's own shape and dimension records).

  One sparse product  A · x  with A given by E edges (row, column, weight) is, as lowered:
  wrap negative column numbers by 150000, gather the rows x[col], scale row e by weight e, and add row e
  into row row(e) of a zero [150000, 64] array. `spmmAdj` is that product for the 3,000,000-edge graph,
  `spmmImg` for the 1,000,000-edge one. `pipeline` is everything @main computes from the normalized
  image features P: three products to build the mixed embedding z = e1 + e2 + 1·eImg, then two more
  propagation steps added on, acc = z + A z + A (A z).
-/
import proofs.«118849_j28003186770673_1_alg».proof.ReferenceIdeal

noncomputable section

namespace Cert.ReferenceIdeal.Whole

open Cert.ReferenceIdeal.Facts₀ Cert.ReferenceIdeal.Facts
open Cert.ReferenceIdeal Idealize.ShloMosaic Idealize.ShloMosaic.TcCoe

variable {F : FTy → Type} [FloatOps F] [Cert.ReferenceIdeal.Facts]

/-- Two [·, 64] arrays stacked: 100000 rows on top of 50000. -/
def stack (a : (⟨S100000x64, .f32⟩ : BufTy).Contents (Elt F)) (b : (⟨S50000x64, .f32⟩ : BufTy).Contents (Elt F)) :
    (⟨S150000x64, .f32⟩ : BufTy).Contents (Elt F) :=
  concatenate S150000x64 0 [⟨S100000x64, a⟩, ⟨S50000x64, b⟩] concatenates_S100000x64_S50000x64_S150000x64_d0

/-- The first 100000 rows. -/
def top (x : (⟨S150000x64, .f32⟩ : BufTy).Contents (Elt F)) : (⟨S100000x64, .f32⟩ : BufTy).Contents (Elt F) :=
  extractStridedSlice S100000x64 ![0, 0] x slices_S150000x64_S100000x64_0_0

/-- The last 50000 rows. -/
def bottom (x : (⟨S150000x64, .f32⟩ : BufTy).Contents (Elt F)) : (⟨S50000x64, .f32⟩ : BufTy).Contents (Elt F) :=
  extractStridedSlice S50000x64 ![100000, 0] x slices_S150000x64_S50000x64_100000_0

/-- The sparse product over the 3,000,000-edge graph (rows a0, columns a1, weights a2). -/
def spmmAdj (a0 a1 : (⟨S3000000, .i32⟩ : BufTy).Contents (Elt F)) (a2 : (⟨S3000000, .f32⟩ : BufTy).Contents (Elt F))
    (x : (⟨S150000x64, .f32⟩ : BufTy).Contents (Elt F)) : (⟨S150000x64, .f32⟩ : BufTy).Contents (Elt F) :=
  Host.scatterAdd scatter_S150000x64_S3000000x1_S3000000x64_1_0_0_1
    (broadcastInDim S150000x64 ![] bcast_S_S150000x64 (constant S_ .f32 0x00000000#32))
    (broadcastInDim S3000000x1 ![0] bcast_S3000000_S3000000x1_0 a0)
    (mulf (broadcastInDim S3000000x64 ![0, 1] bcast_S3000000x1_S3000000x64_0_1 (broadcastInDim S3000000x1 ![0] bcast_S3000000_S3000000x1_0 a2))
      (Host.gather gather_S150000x64_S3000000x1_S3000000x64_1_0_n_n_0_1_164 x
        (broadcastInDim S3000000x1 ![0] bcast_S3000000_S3000000x1_0
          (select (cmpi .slt a1 (broadcastInDim S3000000 ![] bcast_S_S3000000 (constantI S_ 32 0#32)))
            (addi a1 (broadcastInDim S3000000 ![] bcast_S_S3000000 (constantI S_ 32 150000#32))) a1))))

/-- The sparse product over the 1,000,000-edge graph (rows a3, columns a4, weights a5). -/
def spmmImg (a3 a4 : (⟨S1000000, .i32⟩ : BufTy).Contents (Elt F)) (a5 : (⟨S1000000, .f32⟩ : BufTy).Contents (Elt F))
    (x : (⟨S150000x64, .f32⟩ : BufTy).Contents (Elt F)) : (⟨S150000x64, .f32⟩ : BufTy).Contents (Elt F) :=
  Host.scatterAdd scatter_S150000x64_S1000000x1_S1000000x64_1_0_0_1
    (broadcastInDim S150000x64 ![] bcast_S_S150000x64 (constant S_ .f32 0x00000000#32))
    (broadcastInDim S1000000x1 ![0] bcast_S1000000_S1000000x1_0 a3)
    (mulf (broadcastInDim S1000000x64 ![0, 1] bcast_S1000000x1_S1000000x64_0_1 (broadcastInDim S1000000x1 ![0] bcast_S1000000_S1000000x1_0 a5))
      (Host.gather gather_S150000x64_S1000000x1_S1000000x64_1_0_n_n_0_1_164 x
        (broadcastInDim S1000000x1 ![0] bcast_S1000000_S1000000x1_0
          (select (cmpi .slt a4 (broadcastInDim S1000000 ![] bcast_S_S1000000 (constantI S_ 32 0#32)))
            (addi a4 (broadcastInDim S1000000 ![] bcast_S_S1000000 (constantI S_ 32 150000#32))) a4))))

/-- The entrywise sum of two [150000, 64] arrays. -/
def sum2 (a b : (⟨S150000x64, .f32⟩ : BufTy).Contents (Elt F)) : (⟨S150000x64, .f32⟩ : BufTy).Contents (Elt F) := addf a b

/-- a + b + 1·c entrywise, the factor being the float literal 1.0 spread over the array. -/
def mix3 (a b c : (⟨S150000x64, .f32⟩ : BufTy).Contents (Elt F)) : (⟨S150000x64, .f32⟩ : BufTy).Contents (Elt F) :=
  addf (addf a b) (mulf (broadcastInDim S150000x64 ![] bcast_S_S150000x64 (constant S_ .f32 0x3F800000#32)) c)

/-- Everything @main computes after region 0, from region 0's output P and the argument arrays. -/
def pipeline (a0 a1 : (⟨S3000000, .i32⟩ : BufTy).Contents (Elt F)) (a2 : (⟨S3000000, .f32⟩ : BufTy).Contents (Elt F))
    (a3 a4 : (⟨S1000000, .i32⟩ : BufTy).Contents (Elt F)) (a5 : (⟨S1000000, .f32⟩ : BufTy).Contents (Elt F))
    (a7 : (⟨S100000x64, .f32⟩ : BufTy).Contents (Elt F)) (a8 : (⟨S50000x64, .f32⟩ : BufTy).Contents (Elt F))
    (P : (⟨S50000x64, .f32⟩ : BufTy).Contents (Elt F)) : (⟨S150000x64, .f32⟩ : BufTy).Contents (Elt F) :=
  sum2 (sum2 (mix3 (spmmAdj a0 a1 a2 (stack a7 P)) (spmmAdj a0 a1 a2 (stack (top (spmmAdj a0 a1 a2 (stack a7 P))) a8)) (spmmImg a3 a4 a5 (stack a7 a8)))
      (spmmAdj a0 a1 a2 (mix3 (spmmAdj a0 a1 a2 (stack a7 P)) (spmmAdj a0 a1 a2 (stack (top (spmmAdj a0 a1 a2 (stack a7 P))) a8)) (spmmImg a3 a4 a5 (stack a7 a8)))))
    (spmmAdj a0 a1 a2 (spmmAdj a0 a1 a2 (mix3 (spmmAdj a0 a1 a2 (stack a7 P)) (spmmAdj a0 a1 a2 (stack (top (spmmAdj a0 a1 a2 (stack a7 P))) a8)) (spmmImg a3 a4 a5 (stack a7 a8)))))

end Cert.ReferenceIdeal.Whole

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«118849_j28003186770673_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.RefFeats.lean ====
/-
  The reference's normalized image features as one whole-array function, and that function read at an entry on
  the extended reals: entry (R, g) of (x·W + b) / max(‖row‖, ε) is the projection-and-normalization `rowUnit` of row R
  of the image features, column g. The host's matrix product is the sum over k; its bias vector, made a [1, 64] row and
  repeated down the rows, gives the bias entry of the column; its norm is the square root of the row sum (from the zero
  word) of the squares, kept as a column; the column of norms, bounded below by the literal, is repeated along the columns.
-/
import proofs.«118849_j28003186770673_1_alg».proof.ReferenceIdeal
import proofs.«118849_j28003186770673_1_alg».proof.Proof.NormSpec
import proofs.«118849_j28003186770673_1_alg».proof.Proof.LibPlainDot
import proofs.«118849_j28003186770673_1_alg».proof.Proof.LibHostRows

set_option maxRecDepth 16384

noncomputable section

open scoped BigOperators

namespace Cert.ReferenceIdeal.Whole

open Cert.ReferenceIdeal.Facts₀ Cert.ReferenceIdeal.Facts
open Cert.ReferenceIdeal Cert.NormSpec Idealize.ShloMosaic Idealize.ShloMosaic.TcCoe Idealize.ShloMosaic.ValueIdx

section Spelling

variable {F : FTy → Type} [FloatOps F] [Cert.ReferenceIdeal.Facts]

/-- The biased projection x·W + b as the reference spells it. -/
def proj (x6 : (⟨S50000x1024, .f32⟩ : BufTy).Contents (Elt F)) (x9 : (⟨S1024x64, .f32⟩ : BufTy).Contents (Elt F))
    (x10 : (⟨S64, .f32⟩ : BufTy).Contents (Elt F)) : (⟨S50000x64, .f32⟩ : BufTy).Contents (Elt F) :=
  addf (Host.dotGeneral dot_S50000x1024_S1024x64_S50000x64_1_0_0_1_n_n none x6 x9)
    (broadcastInDim S50000x64 ![0, 1] bcast_S1x64_S50000x64_0_1 (broadcastInDim S1x64 ![1] bcast_S64_S1x64_1 x10))

/-- The column of row norms, bounded below by the literal, as the reference spells it. -/
def normCol (x6 : (⟨S50000x1024, .f32⟩ : BufTy).Contents (Elt F)) (x9 : (⟨S1024x64, .f32⟩ : BufTy).Contents (Elt F))
    (x10 : (⟨S64, .f32⟩ : BufTy).Contents (Elt F)) : (⟨S50000x1, .f32⟩ : BufTy).Contents (Elt F) :=
  maximumf
    (Host.sqrt (broadcastInDim S50000x1 ![0] bcast_S50000_S50000x1_0
      (Host.reduceAdd (mulf (proj x6 x9 x10) (proj x6 x9 x10)) (constant S_ .f32 0x00000000#32) reducesTo_S50000x64_S50000_d1 h_S_)))
    (broadcastInDim S50000x1 ![] bcast_S_S50000x1 (constant S_ .f32 0x2B8CBCCC#32))

/-- The normalized features as the reference spells them. -/
def feats (x6 : (⟨S50000x1024, .f32⟩ : BufTy).Contents (Elt F)) (x9 : (⟨S1024x64, .f32⟩ : BufTy).Contents (Elt F))
    (x10 : (⟨S64, .f32⟩ : BufTy).Contents (Elt F)) : (⟨S50000x64, .f32⟩ : BufTy).Contents (Elt F) :=
  Host.divf (proj x6 x9 x10) (broadcastInDim S50000x64 ![0, 1] bcast_S50000x1_S50000x64_0_1 (normCol x6 x9 x10))

end Spelling

variable [Cert.ReferenceIdeal.Facts]
variable (x6 : (⟨S50000x1024, .f32⟩ : BufTy).Contents (Elt Ideal)) (x9 : (⟨S1024x64, .f32⟩ : BufTy).Contents (Elt Ideal))
  (x10 : (⟨S64, .f32⟩ : BufTy).Contents (Elt Ideal))

/-- The biased projection at (R, g): row R through the weights, plus bias g. -/
theorem proj_at (R : Fin 50000) (g : Fin 64) :
    proj (F := Ideal) x6 x9 x10 (ix2 R g) = rowFeat (fun k => x6 (ix2 R k)) x9 (fun d => x10 (ix1 d)) g := by
  show (Host.dotGeneral (F := Ideal) (DotDims.plain 50000 1024 64) none x6 x9 (ix2 R g) : EReal)
      + broadcastInDim ⟨2, ![50000, 64]⟩ ![0, 1] bcast_S1x64_S50000x64_0_1 (broadcastInDim S1x64 ![1] bcast_S64_S1x64_1 x10) (ix2 R g) = _
  rw [Cert.LibPlainDot.dotGeneral_apply, Cert.LibHostRows.bcast_1b_ab_at _ rfl rfl, Cert.LibHostRows.bcast_b_1b_at _ rfl]
  rfl

/-- The row sum of the squares, from the zero word, at row R: the row's squared length. -/
theorem sq_at (R : Fin 50000) :
    Host.reduceAdd (F := Ideal) (mulf (proj (F := Ideal) x6 x9 x10) (proj (F := Ideal) x6 x9 x10)) (constant S_ .f32 0x00000000#32)
        reducesTo_S50000x64_S50000_d1 h_S_ (ix1 R)
      = rowSq (fun k => x6 (ix2 R k)) x9 (fun d => x10 (ix1 d)) := by
  refine (Cert.LibHostRows.hostReduceAdd_rows (mulf (proj (F := Ideal) x6 x9 x10) (proj (F := Ideal) x6 x9 x10))
    (constant (F := Ideal) S_ .f32 0x00000000#32) reducesTo_S50000x64_S50000_d1 (by decide) h_S_ R).trans ?_
  show Ideal.ofBits .f32 0x00000000#32 + ∑ d : Fin 64, proj (F := Ideal) x6 x9 x10 (ix2 R d) * proj (F := Ideal) x6 x9 x10 (ix2 R d) = _
  rw [Ideal.ofBits_zero_f32, zero_add]
  unfold rowSq
  refine Finset.sum_congr rfl fun d _ => ?_
  rw [proj_at]

/-- The host's quotient, square root and maximum read at an entry on the extended reals. -/
theorem hostDivf_at {s : Shape} (a b : FVec Ideal s .f32) (i : s.Idx) : Host.divf (F := Ideal) a b i = Ideal.div (a i) (b i) := rfl
theorem hostSqrt_at {s : Shape} (y : FVec Ideal s .f32) (i : s.Idx) : Host.sqrt (F := Ideal) y i = Ideal.sqrt (y i) := rfl
theorem maximumf_at {s : Shape} (u v : FVec Ideal s .f32) (i : s.Idx) : maximumf (F := Ideal) u v i = max (u i) (v i) := rfl

/-- The bounded norm of row R. -/
theorem normCol_at (R : Fin 50000) :
    normCol (F := Ideal) x6 x9 x10 (ix2 R (0 : Fin 1))
      = max (Ideal.sqrt (rowSq (fun k => x6 (ix2 R k)) x9 (fun d => x10 (ix1 d)))) (Ideal.ofBits .f32 0x2B8CBCCC#32) := by
  unfold normCol
  rw [maximumf_at, hostSqrt_at, Cert.LibHostRows.bcast_a_a1_at _ rfl, sq_at,
    broadcastInDim_apply _ bcast_S_S50000x1 (constant (F := Ideal) S_ .f32 0x2B8CBCCC#32) (ix2 R (0 : Fin 1)) (fun a => a.elim0) (fun a => a.elim0)]
  rfl

/-- The normalized features at (R, g). -/
theorem feats_at (R : Fin 50000) (g : Fin 64) :
    feats (F := Ideal) x6 x9 x10 (ix2 R g) = rowUnit (fun k => x6 (ix2 R k)) x9 (fun d => x10 (ix1 d)) g := by
  unfold feats
  rw [hostDivf_at, Cert.LibHostRows.bcast_a1_ab_at _ rfl rfl, normCol_at, proj_at]
  rfl

end Cert.ReferenceIdeal.Whole

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.RefFold.lean ====
/-
  The reference's run, read piece by piece. Its 107 host operations are cut into five consecutive pieces:
  (1) the normalized image features and the image-graph product, (2) the first graph product e1, (3) the second graph
  product e2, (4) the mix z = e1 + e2 + 1·eImg with one propagation step added on, (5) the second propagation step added
  on and the two slices. Each piece is read from contents left abstract, so every reading is as small as its piece;
  chained, they give the two results as the top and bottom rows of `pipeline` of the arguments and the features.
-/
import proofs.«118849_j28003186770673_1_alg».proof.Proof.RefRunP
import proofs.«118849_j28003186770673_1_alg».proof.Proof.RefPipe
import proofs.«118849_j28003186770673_1_alg».proof.Proof.RefFeats
import proofs.«118849_j28003186770673_1_alg».proof.Proof.LibCut
import proofs.«118849_j28003186770673_1_alg».proof.Proof.LibTypedRef

set_option maxRecDepth 16384

noncomputable section

namespace Cert.ReferenceIdeal.Whole

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]

/-! ## The five pieces -/

abbrev head1 : List (HloOp τ sig (Elt F)) := (ops (F := F)).take 31
abbrev rest1 : List (HloOp τ sig (Elt F)) := (ops (F := F)).drop 31
abbrev head2 : List (HloOp τ sig (Elt F)) := (rest1 (F := F)).take 17
abbrev rest2 : List (HloOp τ sig (Elt F)) := (rest1 (F := F)).drop 17
abbrev head3 : List (HloOp τ sig (Elt F)) := (rest2 (F := F)).take 18
abbrev rest3 : List (HloOp τ sig (Elt F)) := (rest2 (F := F)).drop 18
abbrev head4 : List (HloOp τ sig (Elt F)) := (rest3 (F := F)).take 22
abbrev rest4 : List (HloOp τ sig (Elt F)) := (rest3 (F := F)).drop 22

/-- The whole run is the five pieces run one after the other. -/
theorem run_pieces (V : Valuation τ sig (Elt F)) :
    after (ops (F := F)) V = after rest4 (after head4 (after head3 (after head2 (after head1 V)))) :=
  (Cert.LibCut.after_cut 31 ops V).trans
    ((Cert.LibCut.after_cut 17 rest1 _).trans
      ((Cert.LibCut.after_cut 18 rest2 _).trans (Cert.LibCut.after_cut 22 rest3 _)))

/-- A buffer no operation of the piece writes keeps its contents through the piece. -/
macro "kept_by" : tactic => `(tactic|
  exact StableHlo.after_of_forall_not_mem _ _ (List.forall_iff_forall_mem.mp (by
    simp only [ops, head1, rest1, head2, rest2, head3, rest3, head4, rest4, List.drop_succ_cons, List.drop_zero, List.take_succ_cons, List.take_zero, List.Forall, StableHlo.nullary_writes, StableHlo.unary_writes, StableHlo.binary_writes,
      StableHlo.ternary_writes, StableHlo.TRef.nullary, StableHlo.TRef.unary, StableHlo.TRef.binary, Finset.mem_singleton]
    repeat' apply And.intro
    all_goals exact StableHlo.devRef_ne_of_ne (by decide))))

/-- Reads a piece at a buffer it writes: the operations' functions of the contents the piece found. -/
macro "read_piece" : tactic => `(tactic| (
  simp only [ops, head1, rest1, head2, rest2, head3, rest3, head4, rest4, List.drop_succ_cons, List.drop_zero, List.take_succ_cons, List.take_zero]
  after_results_simp))

/-! ## Piece 1: the features and the image-graph product -/

theorem p1_feats (U : Valuation τ sig (Elt F)) : after (head1 (F := F)) U (Proc.devRef .tc main_v22)
    = feats (U (Proc.devRef .tc main_arg6)) (U (Proc.devRef .tc main_arg9)) (U (Proc.devRef .tc main_arg10)) := by
  read_piece
  simp only [Cert.LibTypedRef.ofBuf_toBuf]
  unfold feats normCol proj
  rfl

theorem p1_eImg (U : Valuation τ sig (Elt F)) : after (head1 (F := F)) U (Proc.devRef .tc main_v17)
    = spmmImg (U (Proc.devRef .tc main_arg3)) (U (Proc.devRef .tc main_arg4)) (U (Proc.devRef .tc main_arg5)) (stack (U (Proc.devRef .tc main_arg7)) (U (Proc.devRef .tc main_arg8))) := by
  read_piece
  unfold spmmImg stack
  rfl

theorem p1_arg0 (U : Valuation τ sig (Elt F)) : after (head1 (F := F)) U (Proc.devRef .tc main_arg0) = U (Proc.devRef .tc main_arg0) := by kept_by
theorem p1_arg1 (U : Valuation τ sig (Elt F)) : after (head1 (F := F)) U (Proc.devRef .tc main_arg1) = U (Proc.devRef .tc main_arg1) := by kept_by
theorem p1_arg2 (U : Valuation τ sig (Elt F)) : after (head1 (F := F)) U (Proc.devRef .tc main_arg2) = U (Proc.devRef .tc main_arg2) := by kept_by
theorem p1_arg7 (U : Valuation τ sig (Elt F)) : after (head1 (F := F)) U (Proc.devRef .tc main_arg7) = U (Proc.devRef .tc main_arg7) := by kept_by
theorem p1_arg8 (U : Valuation τ sig (Elt F)) : after (head1 (F := F)) U (Proc.devRef .tc main_arg8) = U (Proc.devRef .tc main_arg8) := by kept_by

/-! ## Piece 2: the first graph product -/

theorem p2_e1 (U : Valuation τ sig (Elt F)) : after (head2 (F := F)) U (Proc.devRef .tc main_v36)
    = spmmAdj (U (Proc.devRef .tc main_arg0)) (U (Proc.devRef .tc main_arg1)) (U (Proc.devRef .tc main_arg2)) (stack (U (Proc.devRef .tc main_arg7)) (U (Proc.devRef .tc main_v22))) := by
  read_piece
  unfold spmmAdj stack
  rfl

theorem p2_arg0 (U : Valuation τ sig (Elt F)) : after (head2 (F := F)) U (Proc.devRef .tc main_arg0) = U (Proc.devRef .tc main_arg0) := by kept_by
theorem p2_arg1 (U : Valuation τ sig (Elt F)) : after (head2 (F := F)) U (Proc.devRef .tc main_arg1) = U (Proc.devRef .tc main_arg1) := by kept_by
theorem p2_arg2 (U : Valuation τ sig (Elt F)) : after (head2 (F := F)) U (Proc.devRef .tc main_arg2) = U (Proc.devRef .tc main_arg2) := by kept_by
theorem p2_arg8 (U : Valuation τ sig (Elt F)) : after (head2 (F := F)) U (Proc.devRef .tc main_arg8) = U (Proc.devRef .tc main_arg8) := by kept_by
theorem p2_v17 (U : Valuation τ sig (Elt F)) : after (head2 (F := F)) U (Proc.devRef .tc main_v17) = U (Proc.devRef .tc main_v17) := by kept_by

/-! ## Piece 3: the second graph product -/

theorem p3_e2 (U : Valuation τ sig (Elt F)) : after (head3 (F := F)) U (Proc.devRef .tc main_v51)
    = spmmAdj (U (Proc.devRef .tc main_arg0)) (U (Proc.devRef .tc main_arg1)) (U (Proc.devRef .tc main_arg2)) (stack (top (U (Proc.devRef .tc main_v36))) (U (Proc.devRef .tc main_arg8))) := by
  read_piece
  unfold spmmAdj stack top
  rfl

theorem p3_arg0 (U : Valuation τ sig (Elt F)) : after (head3 (F := F)) U (Proc.devRef .tc main_arg0) = U (Proc.devRef .tc main_arg0) := by kept_by
theorem p3_arg1 (U : Valuation τ sig (Elt F)) : after (head3 (F := F)) U (Proc.devRef .tc main_arg1) = U (Proc.devRef .tc main_arg1) := by kept_by
theorem p3_arg2 (U : Valuation τ sig (Elt F)) : after (head3 (F := F)) U (Proc.devRef .tc main_arg2) = U (Proc.devRef .tc main_arg2) := by kept_by
theorem p3_v17 (U : Valuation τ sig (Elt F)) : after (head3 (F := F)) U (Proc.devRef .tc main_v17) = U (Proc.devRef .tc main_v17) := by kept_by
theorem p3_v36 (U : Valuation τ sig (Elt F)) : after (head3 (F := F)) U (Proc.devRef .tc main_v36) = U (Proc.devRef .tc main_v36) := by kept_by

/-! ## Piece 4: the mix, one propagation step, their sum -/

theorem p4_acc1 (U : Valuation τ sig (Elt F)) : after (head4 (F := F)) U (Proc.devRef .tc main_v69)
    = sum2 (mix3 (U (Proc.devRef .tc main_v36)) (U (Proc.devRef .tc main_v51)) (U (Proc.devRef .tc main_v17)))
        (spmmAdj (U (Proc.devRef .tc main_arg0)) (U (Proc.devRef .tc main_arg1)) (U (Proc.devRef .tc main_arg2)) (mix3 (U (Proc.devRef .tc main_v36)) (U (Proc.devRef .tc main_v51)) (U (Proc.devRef .tc main_v17)))) := by
  read_piece
  unfold sum2 mix3 spmmAdj
  rfl

theorem p4_c1 (U : Valuation τ sig (Elt F)) : after (head4 (F := F)) U (Proc.devRef .tc main_v68)
    = spmmAdj (U (Proc.devRef .tc main_arg0)) (U (Proc.devRef .tc main_arg1)) (U (Proc.devRef .tc main_arg2)) (mix3 (U (Proc.devRef .tc main_v36)) (U (Proc.devRef .tc main_v51)) (U (Proc.devRef .tc main_v17))) := by
  read_piece
  unfold mix3 spmmAdj
  rfl

theorem p4_arg0 (U : Valuation τ sig (Elt F)) : after (head4 (F := F)) U (Proc.devRef .tc main_arg0) = U (Proc.devRef .tc main_arg0) := by kept_by
theorem p4_arg1 (U : Valuation τ sig (Elt F)) : after (head4 (F := F)) U (Proc.devRef .tc main_arg1) = U (Proc.devRef .tc main_arg1) := by kept_by
theorem p4_arg2 (U : Valuation τ sig (Elt F)) : after (head4 (F := F)) U (Proc.devRef .tc main_arg2) = U (Proc.devRef .tc main_arg2) := by kept_by

/-! ## Piece 5: the second propagation step added on, and the two slices -/

theorem p5_out0 (U : Valuation τ sig (Elt F)) : after (rest4 (F := F)) U (Proc.devRef .tc main_v84)
    = top (sum2 (U (Proc.devRef .tc main_v69)) (spmmAdj (U (Proc.devRef .tc main_arg0)) (U (Proc.devRef .tc main_arg1)) (U (Proc.devRef .tc main_arg2)) (U (Proc.devRef .tc main_v68)))) := by
  read_piece
  unfold top sum2 spmmAdj
  rfl

theorem p5_out1 (U : Valuation τ sig (Elt F)) : after (rest4 (F := F)) U (Proc.devRef .tc main_v85)
    = bottom (sum2 (U (Proc.devRef .tc main_v69)) (spmmAdj (U (Proc.devRef .tc main_arg0)) (U (Proc.devRef .tc main_arg1)) (U (Proc.devRef .tc main_arg2)) (U (Proc.devRef .tc main_v68)))) := by
  read_piece
  unfold bottom sum2 spmmAdj
  rfl

/-! ## Chained -/

/-- The running sum before the slices, from any launch contents. -/
theorem results (V : Valuation τ sig (Elt F)) :
    after (ops (F := F)) V (Proc.devRef .tc main_v84)
        = top (pipeline (V (Proc.devRef .tc main_arg0)) (V (Proc.devRef .tc main_arg1)) (V (Proc.devRef .tc main_arg2)) (V (Proc.devRef .tc main_arg3)) (V (Proc.devRef .tc main_arg4)) (V (Proc.devRef .tc main_arg5))
            (V (Proc.devRef .tc main_arg7)) (V (Proc.devRef .tc main_arg8)) (feats (V (Proc.devRef .tc main_arg6)) (V (Proc.devRef .tc main_arg9)) (V (Proc.devRef .tc main_arg10))))
    ∧ after (ops (F := F)) V (Proc.devRef .tc main_v85)
        = bottom (pipeline (V (Proc.devRef .tc main_arg0)) (V (Proc.devRef .tc main_arg1)) (V (Proc.devRef .tc main_arg2)) (V (Proc.devRef .tc main_arg3)) (V (Proc.devRef .tc main_arg4)) (V (Proc.devRef .tc main_arg5))
            (V (Proc.devRef .tc main_arg7)) (V (Proc.devRef .tc main_arg8)) (feats (V (Proc.devRef .tc main_arg6)) (V (Proc.devRef .tc main_arg9)) (V (Proc.devRef .tc main_arg10)))) := by
  rw [run_pieces V]
  constructor
  · rw [p5_out0, p4_acc1, p4_c1, p4_arg0, p4_arg1, p4_arg2, p3_e2, p3_arg0, p3_arg1, p3_arg2, p3_v17, p3_v36,
      p2_e1, p2_arg0, p2_arg1, p2_arg2, p2_arg8, p2_v17, p1_feats, p1_eImg, p1_arg0, p1_arg1, p1_arg2, p1_arg7, p1_arg8]
    rfl
  · rw [p5_out1, p4_acc1, p4_c1, p4_arg0, p4_arg1, p4_arg2, p3_e2, p3_arg0, p3_arg1, p3_arg2, p3_v17, p3_v36,
      p2_e1, p2_arg0, p2_arg1, p2_arg2, p2_arg8, p2_v17, p1_feats, p1_eImg, p1_arg0, p1_arg1, p1_arg2, p1_arg7, p1_arg8]
    rfl

/-! ## No operation writes an argument -/

theorem whole_arg0 (V : Valuation τ sig (Elt F)) : after (ops (F := F)) V (Proc.devRef .tc main_arg0) = V (Proc.devRef .tc main_arg0) := by kept_by
theorem whole_arg1 (V : Valuation τ sig (Elt F)) : after (ops (F := F)) V (Proc.devRef .tc main_arg1) = V (Proc.devRef .tc main_arg1) := by kept_by
theorem whole_arg2 (V : Valuation τ sig (Elt F)) : after (ops (F := F)) V (Proc.devRef .tc main_arg2) = V (Proc.devRef .tc main_arg2) := by kept_by
theorem whole_arg3 (V : Valuation τ sig (Elt F)) : after (ops (F := F)) V (Proc.devRef .tc main_arg3) = V (Proc.devRef .tc main_arg3) := by kept_by
theorem whole_arg4 (V : Valuation τ sig (Elt F)) : after (ops (F := F)) V (Proc.devRef .tc main_arg4) = V (Proc.devRef .tc main_arg4) := by kept_by
theorem whole_arg5 (V : Valuation τ sig (Elt F)) : after (ops (F := F)) V (Proc.devRef .tc main_arg5) = V (Proc.devRef .tc main_arg5) := by kept_by
theorem whole_arg6 (V : Valuation τ sig (Elt F)) : after (ops (F := F)) V (Proc.devRef .tc main_arg6) = V (Proc.devRef .tc main_arg6) := by kept_by
theorem whole_arg7 (V : Valuation τ sig (Elt F)) : after (ops (F := F)) V (Proc.devRef .tc main_arg7) = V (Proc.devRef .tc main_arg7) := by kept_by
theorem whole_arg8 (V : Valuation τ sig (Elt F)) : after (ops (F := F)) V (Proc.devRef .tc main_arg8) = V (Proc.devRef .tc main_arg8) := by kept_by
theorem whole_arg9 (V : Valuation τ sig (Elt F)) : after (ops (F := F)) V (Proc.devRef .tc main_arg9) = V (Proc.devRef .tc main_arg9) := by kept_by
theorem whole_arg10 (V : Valuation τ sig (Elt F)) : after (ops (F := F)) V (Proc.devRef .tc main_arg10) = V (Proc.devRef .tc main_arg10) := by kept_by

end Cert.ReferenceIdeal.Whole

end
-- ==== Proof.Bridge.lean ====
/-
  The two programs end with the same results. On the kernel's side the fold of @main's segments gives the results as
  the top and bottom rows of `pipeline` applied to the launch arguments and to region 0's output, which is the
  projection-and-normalization of the image features. On the reference's side the run read piece by piece gives the same
  `pipeline` (spelt over the reference's own shape records: the two spellings are the same functions) applied to its own
  normalized features. The two feature arrays agree entry by entry: both are `rowUnit` of the same row (the kernel's
  bias row is the reference's bias vector recast).
-/
import proofs.«118849_j28003186770673_1_alg».proof.Proof.Fold
import proofs.«118849_j28003186770673_1_alg».proof.Proof.Region0
import proofs.«118849_j28003186770673_1_alg».proof.Proof.KernelRun
import proofs.«118849_j28003186770673_1_alg».proof.Proof.RefFold
import proofs.«118849_j28003186770673_1_alg».proof.Proof.Gen.KernelIdeal
import proofs.«118849_j28003186770673_1_alg».proof.Proof.Gen.ReferenceIdeal

set_option maxRecDepth 16384

noncomputable section

namespace Cert.Bridge

open Idealize.ShloMosaic Idealize.ShloMosaic.TcCoe Idealize.SL.Sem Idealize.ShloMosaic.ValueIdx
open Cert.NormSpec

/-! ## The kernel's results -/

section Kernel

open Cert.KernelIdeal Cert.KernelIdeal.Gen Cert.KernelIdeal.Whole

variable (m : (ℓ : Loc nD τ sig) → Buf (Elt Ideal) ℓ) (ρ : Dev nD → PrngReg)

/-- Region 0's output: the projection-and-normalization of the launch image features. -/
theorem feats_out (c : Dev nD) : (dat0 (V1 m ρ) c).arrAt 3 cfg0.N
    = projUnit (m ((c : Thread nD τ).loc main_arg6)) (m ((c : Thread nD τ).loc main_arg9))
        (shapeCast S1x64 (m ((c : Thread nD τ).loc main_arg10)) shapeCasts_S64_S1x64) := by
  rw [whole0 (V1 m ρ) c, feats_in, weights_in, bias_in]

theorem kernel_out0 (c : Dev nD) : W9 m ρ c (Proc.devRef .tc main_v74)
    = top (pipeline (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (projUnit (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (shapeCast S1x64 (m ((c.tc : Thread Cert.KernelIdeal.nD Cert.KernelIdeal.τ).loc Cert.KernelIdeal.main_arg10)) shapeCasts_S64_S1x64))) := by
  rw [out0_at9, acc_eq, feats_out]

theorem kernel_out1 (c : Dev nD) : W9 m ρ c (Proc.devRef .tc main_v75)
    = bottom (pipeline (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (projUnit (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (shapeCast S1x64 (m ((c.tc : Thread Cert.KernelIdeal.nD Cert.KernelIdeal.τ).loc Cert.KernelIdeal.main_arg10)) shapeCasts_S64_S1x64))) := by
  rw [out1_at9, acc_eq, feats_out]

end Kernel

/-! ## The reference's spelling of the host pipeline is the kernel's -/

section Twins

variable {F : FTy → Type} [FloatOps F]

theorem stack_eq (a : (⟨Cert.KernelIdeal.S100000x64, .f32⟩ : BufTy).Contents (Elt F)) (b : (⟨Cert.KernelIdeal.S50000x64, .f32⟩ : BufTy).Contents (Elt F)) :
    Cert.ReferenceIdeal.Whole.stack a b = Cert.KernelIdeal.Whole.stack a b := rfl
theorem top_eq (x : (⟨Cert.KernelIdeal.S150000x64, .f32⟩ : BufTy).Contents (Elt F)) :
    Cert.ReferenceIdeal.Whole.top x = Cert.KernelIdeal.Whole.top x := rfl
theorem bottom_eq (x : (⟨Cert.KernelIdeal.S150000x64, .f32⟩ : BufTy).Contents (Elt F)) :
    Cert.ReferenceIdeal.Whole.bottom x = Cert.KernelIdeal.Whole.bottom x := rfl
theorem sum2_eq (a b : (⟨Cert.KernelIdeal.S150000x64, .f32⟩ : BufTy).Contents (Elt F)) :
    Cert.ReferenceIdeal.Whole.sum2 a b = Cert.KernelIdeal.Whole.sum2 a b := rfl
theorem mix3_eq (a b c : (⟨Cert.KernelIdeal.S150000x64, .f32⟩ : BufTy).Contents (Elt F)) :
    Cert.ReferenceIdeal.Whole.mix3 a b c = Cert.KernelIdeal.Whole.mix3 a b c := rfl
theorem spmmAdj_eq (a0 a1 : (⟨Cert.KernelIdeal.S3000000, .i32⟩ : BufTy).Contents (Elt F)) (a2 : (⟨Cert.KernelIdeal.S3000000, .f32⟩ : BufTy).Contents (Elt F))
    (x : (⟨Cert.KernelIdeal.S150000x64, .f32⟩ : BufTy).Contents (Elt F)) :
    Cert.ReferenceIdeal.Whole.spmmAdj a0 a1 a2 x = Cert.KernelIdeal.Whole.spmmAdj a0 a1 a2 x := rfl
theorem spmmImg_eq (a3 a4 : (⟨Cert.KernelIdeal.S1000000, .i32⟩ : BufTy).Contents (Elt F)) (a5 : (⟨Cert.KernelIdeal.S1000000, .f32⟩ : BufTy).Contents (Elt F))
    (x : (⟨Cert.KernelIdeal.S150000x64, .f32⟩ : BufTy).Contents (Elt F)) :
    Cert.ReferenceIdeal.Whole.spmmImg a3 a4 a5 x = Cert.KernelIdeal.Whole.spmmImg a3 a4 a5 x := rfl

theorem pipeline_eq (a0 a1 : (⟨Cert.KernelIdeal.S3000000, .i32⟩ : BufTy).Contents (Elt F)) (a2 : (⟨Cert.KernelIdeal.S3000000, .f32⟩ : BufTy).Contents (Elt F))
    (a3 a4 : (⟨Cert.KernelIdeal.S1000000, .i32⟩ : BufTy).Contents (Elt F)) (a5 : (⟨Cert.KernelIdeal.S1000000, .f32⟩ : BufTy).Contents (Elt F))
    (a7 : (⟨Cert.KernelIdeal.S100000x64, .f32⟩ : BufTy).Contents (Elt F)) (a8 : (⟨Cert.KernelIdeal.S50000x64, .f32⟩ : BufTy).Contents (Elt F))
    (P : (⟨Cert.KernelIdeal.S50000x64, .f32⟩ : BufTy).Contents (Elt F)) :
    Cert.ReferenceIdeal.Whole.pipeline a0 a1 a2 a3 a4 a5 a7 a8 P = Cert.KernelIdeal.Whole.pipeline a0 a1 a2 a3 a4 a5 a7 a8 P := by
  unfold Cert.ReferenceIdeal.Whole.pipeline Cert.KernelIdeal.Whole.pipeline
  simp only [stack_eq, top_eq, sum2_eq, mix3_eq, spmmAdj_eq, spmmImg_eq]

end Twins

/-! ## The two feature arrays agree -/

/-- The kernel's features (bias as a recast row) are the reference's (bias as a vector), entry by entry. -/
theorem feats_agree (x6 : Cert.KernelIdeal.S50000x1024.Idx → EReal) (x9 : Cert.KernelIdeal.S1024x64.Idx → EReal) (x10 : Cert.KernelIdeal.S64.Idx → EReal) :
    Cert.ReferenceIdeal.Whole.feats (F := Ideal) x6 x9 x10
      = Cert.KernelIdeal.Whole.projUnit x6 x9 (shapeCast Cert.KernelIdeal.S1x64 x10 Cert.KernelIdeal.Gen.shapeCasts_S64_S1x64) := by
  funext i
  have hi : i = ix2 (⟨(i 0).val, (i 0).isLt⟩ : Fin 50000) (⟨(i 1).val, (i 1).isLt⟩ : Fin 64) :=
    funext fun a => by match a with | ⟨0, _⟩ => rfl | ⟨1, _⟩ => rfl
  refine (congrArg (Cert.ReferenceIdeal.Whole.feats (F := Ideal) x6 x9 x10) hi).trans ?_
  rw [Cert.ReferenceIdeal.Whole.feats_at]
  unfold Cert.KernelIdeal.Whole.projUnit
  refine Cert.KernelIdeal.Whole.rowUnit_congr rfl rfl (funext fun d => ?_) rfl
  refine (shapeCast_apply x10 _ (ix2 (0 : Fin 1) d) (ix1 d) ?_).symm
  rw [Shape.rowMajor_val_two, Shape.rowMajor_val_one]
  show d.val = (0 : ℕ) * 64 + d.val
  omega

end Cert.Bridge

end
-- ==== Proof.lean ====
/-
  The certificate: a multimodal graph recommender's forward pass as four pipelined TPU regions among host operations,
  against its plain array-library reference, equal on the extended reals.

  Both programs compute, from the image features X, weights W and bias b, the unit-length projected features
  P = (X·W + b) / max(‖row‖, ε); then with the sparse graph operator A (3,000,000 weighted edges) and the image-graph
  operator B (1,000,000 weighted edges), e1 = A [u; P], e2 = A [top e1; i], eImg = B [u; i], z = e1 + e2 + 1·eImg, and
  the result acc = z + A z + A (A z), returned as its first 100000 and last 50000 rows.

  The kernel computes P in region 0 block by block (1000 rows at a time), z in region 1 and the two additions in
  regions 2 and 3 (5000 rows at a time); every sparse product is the same host computation in both programs. So the
  proof has three parts: each region's output array is ONE function of the arrays it read (its blocks tile the array
  and a block's value depends only on the rows it holds); the kernel's run, followed boundary by boundary, ends with
  the results at `pipeline` of the launch arguments and P; and the reference's run, read piece by piece, ends at the
  same `pipeline` of its own P, which agrees with the kernel's entry by entry. No rearrangement of sums is needed, and
  finiteness of the inputs is never used.

  The two kernels' frames are the generated frame proofs; the reference's frame is its run with the results dropped;
  the idealization rewrote nothing, so `preserves` is trivial.
-/
import proofs.«118849_j28003186770673_1_alg».proof.Defs
import proofs.«118849_j28003186770673_1_alg».proof.Proof.Gen.Kernel
import proofs.«118849_j28003186770673_1_alg».proof.Proof.Gen.Kernel.Frame
import proofs.«118849_j28003186770673_1_alg».proof.Proof.Gen.KernelIdeal
import proofs.«118849_j28003186770673_1_alg».proof.Proof.Gen.KernelIdeal.Frame
import proofs.«118849_j28003186770673_1_alg».proof.Proof.Gen.ReferenceIdeal
import proofs.«118849_j28003186770673_1_alg».proof.Proof.Gen.Pre_finite_inputs
import proofs.«118849_j28003186770673_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and no operation of it writes an argument array. -/
theorem frame_referenceIdeal : Cert.frame_ReferenceIdeal := fun m ρ _ =>
  (θ_run Cert.ReferenceIdeal.defs _ _).mono (fun _ h c =>
    ⟨(h c _).trans (Cert.ReferenceIdeal.Whole.whole_arg0 _), (h c _).trans (Cert.ReferenceIdeal.Whole.whole_arg1 _), (h c _).trans (Cert.ReferenceIdeal.Whole.whole_arg2 _), (h c _).trans (Cert.ReferenceIdeal.Whole.whole_arg3 _),
     (h c _).trans (Cert.ReferenceIdeal.Whole.whole_arg4 _), (h c _).trans (Cert.ReferenceIdeal.Whole.whole_arg5 _), (h c _).trans (Cert.ReferenceIdeal.Whole.whole_arg6 _), (h c _).trans (Cert.ReferenceIdeal.Whole.whole_arg7 _),
     (h c _).trans (Cert.ReferenceIdeal.Whole.whole_arg8 _), (h c _).trans (Cert.ReferenceIdeal.Whole.whole_arg9 _), (h c _).trans (Cert.ReferenceIdeal.Whole.whole_arg10 _)⟩)
    (Cert.ReferenceIdeal.ValueP.run_fold (F := Ideal) m ρ)

theorem preserves : Cert.preserves_Kernel_KernelIdeal := trivial

/-- From memories that agree on the arguments both programs run and end with the same two result arrays. -/
theorem algebraic : Cert.algebraic_KernelIdeal_ReferenceIdeal := by
  intro m ρ m' ρ' _ hagree
  refine ⟨fun c => Cert.KernelIdeal.Gen.W9 m ρ c (Proc.devRef .tc Cert.KernelIdeal.main_v74),
    fun c => Cert.KernelIdeal.Gen.W9 m ρ c (Proc.devRef .tc Cert.KernelIdeal.main_v75),
    Cert.KernelIdeal.Whole.run_results (F := Ideal) m ρ, ?_⟩
  refine (θ_run Cert.ReferenceIdeal.defs _ _).mono (fun r h c =>
    ⟨(h c _).trans ?_, (h c _).trans ?_,
     (h c _).trans (Cert.ReferenceIdeal.Whole.whole_arg0 _), (h c _).trans (Cert.ReferenceIdeal.Whole.whole_arg1 _), (h c _).trans (Cert.ReferenceIdeal.Whole.whole_arg2 _), (h c _).trans (Cert.ReferenceIdeal.Whole.whole_arg3 _),
     (h c _).trans (Cert.ReferenceIdeal.Whole.whole_arg4 _), (h c _).trans (Cert.ReferenceIdeal.Whole.whole_arg5 _), (h c _).trans (Cert.ReferenceIdeal.Whole.whole_arg6 _), (h c _).trans (Cert.ReferenceIdeal.Whole.whole_arg7 _),
     (h c _).trans (Cert.ReferenceIdeal.Whole.whole_arg8 _), (h c _).trans (Cert.ReferenceIdeal.Whole.whole_arg9 _), (h c _).trans (Cert.ReferenceIdeal.Whole.whole_arg10 _)⟩)
    (Cert.ReferenceIdeal.ValueP.run_fold (F := Ideal) m' ρ')
  · obtain ⟨h0, h1, h2, h3, h4, h5, h6, h7, h8, h9, h10⟩ := hagree c
    refine ((Cert.ReferenceIdeal.Whole.results (StableHlo.launchContents m' c)).1).trans ?_
    show Cert.ReferenceIdeal.Whole.top (Cert.ReferenceIdeal.Whole.pipeline (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
        (Cert.ReferenceIdeal.Whole.feats (F := Ideal) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) = Cert.KernelIdeal.Gen.W9 m ρ c (Proc.devRef .tc Cert.KernelIdeal.main_v74)
    rw [Cert.Bridge.kernel_out0, h0, h1, h2, h3, h4, h5, h6, h7, h8, h9, h10, Cert.Bridge.feats_agree, Cert.Bridge.top_eq, Cert.Bridge.pipeline_eq]
  · obtain ⟨h0, h1, h2, h3, h4, h5, h6, h7, h8, h9, h10⟩ := hagree c
    refine ((Cert.ReferenceIdeal.Whole.results (StableHlo.launchContents m' c)).2).trans ?_
    show Cert.ReferenceIdeal.Whole.bottom (Cert.ReferenceIdeal.Whole.pipeline (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
        (Cert.ReferenceIdeal.Whole.feats (F := Ideal) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) = Cert.KernelIdeal.Gen.W9 m ρ c (Proc.devRef .tc Cert.KernelIdeal.main_v75)
    rw [Cert.Bridge.kernel_out1, h0, h1, h2, h3, h4, h5, h6, h7, h8, h9, h10, Cert.Bridge.feats_agree, Cert.Bridge.bottom_eq, Cert.Bridge.pipeline_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
